-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S16x40 .f32) (main_arg6 : FVec F S40 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x40 .f32 := Host.absf main_arg5
  let main_cst_6 : FVec F S_ .f32 := constant S_ .f32 0x7F800000#32
  let main_v20 : FVec F S16x40 .f32 := broadcastInDim S16x40 ![] bcast_S_S16x40 main_cst_6
  let main_v21 : IVec S16x40 1 := cmpf .olt main_v19 main_v20
  let main_c_7 : IVec S_ 1 := constantI S_ 1 1#1
  let main_v22 : IVec S_ 1 := (fun x v => Host.reduce IntOp.andi x v reducesTo_S16x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S100000x512 .f32) (main_arg1 : IVec S2x3200000 32) (main_arg2 : FVec F S3200000 .f32) (main_arg3 : FVec F S512x16 .f32) (main_arg4 : FVec F S16 .f32) (main_arg5 : FVec F S16x40 .f32) (main_arg6 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S512x16 .f32 := Host.absf main_arg3
  let main_cst_2 : FVec F S_ .f32 := constant S_ .f32 0x7F800000#32
  let main_v10 : FVec F S512x16 .f32 := broadcastInDim S512x16 ![] bcast_S_S512x16 main_cst_2
  let main_v11 : IVec S512x16 1 := cmpf .olt main_v9 main_v10
  let main_c_3 : IVec S_ 1 := constantI S_ 1 1#1
  let main_v12 : IVec S_ 1 := (fun x v => Host.reduce IntOp.andi x v reducesTo_S512x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_v13 main_v16
-- ==== Kernel.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x512 : Shape := ⟨2, ![5000, 512]⟩
abbrev S5000x16 : Shape := ⟨2, ![5000, 16]⟩
abbrev S3300000x16 : Shape := ⟨2, ![3300000, 16]⟩
abbrev S1x16 : Shape := ⟨2, ![1, 16]⟩
abbrev S100000x40 : Shape := ⟨2, ![100000, 40]⟩
abbrev S5000x40 : Shape := ⟨2, ![5000, 40]⟩
abbrev S3300000x40 : Shape := ⟨2, ![3300000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 86
  | .vmem => 16
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S3200000, .f32⟩
  | .hbm, ⟨3, _⟩ => ⟨S512x16, .f32⟩
  | .hbm, ⟨4, _⟩ => ⟨S16, .f32⟩
  | .hbm, ⟨5, _⟩ => ⟨S16x40, .f32⟩
  | .hbm, ⟨6, _⟩ => ⟨S40, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S3300000x1, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x16, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x40, .f32⟩
  | .hbm, ⟨68, _⟩ => ⟨S3300000x1, .f32⟩
  | .hbm, ⟨69, _⟩ => ⟨S_, .i32⟩
  | .hbm, ⟨70, _⟩ => ⟨S3300000, .i32⟩
  | .hbm, ⟨71, _⟩ => ⟨S3300000, .i1⟩
  | .hbm, ⟨72, _⟩ => ⟨S_, .i32⟩
  | .hbm, ⟨73, _⟩ => ⟨S3300000, .i32⟩
  | .hbm, ⟨74, _⟩ => ⟨S3300000, .i32⟩
  | .hbm, ⟨75, _⟩ => ⟨S3300000, .i32⟩
  | .hbm, ⟨76, _⟩ => ⟨S3300000x1, .i32⟩
  | .hbm, ⟨77, _⟩ => ⟨S3300000x40, .f32⟩
  | .hbm, ⟨78, _⟩ => ⟨S3300000x40, .f32⟩
  | .hbm, ⟨79, _⟩ => ⟨S3300000x40, .f32⟩
  | .hbm, ⟨80, _⟩ => ⟨S_, .f32⟩
  | .hbm, ⟨81, _⟩ => ⟨S100000x40, .f32⟩
  | .hbm, ⟨82, _⟩ => ⟨S3300000x1, .i32⟩
  | .hbm, ⟨83, _⟩ => ⟨S100000x40, .f32⟩
  | .hbm, ⟨84, _⟩ => ⟨S1x40, .f32⟩
  | .hbm, ⟨85, _⟩ => ⟨S100000x40, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S1x16, .f32⟩
  | .local _ .vmem, ⟨8, _⟩ => ⟨S16x40, .f32⟩
  | .local _ .vmem, ⟨9, _⟩ => ⟨S5000x40, .f32⟩
  | .local _ .vmem, ⟨10, _⟩ => ⟨S5000x40, .f32⟩
  | .local _ .vmem, ⟨11, _⟩ => ⟨S5000x40, .f32⟩
  | .local _ .vmem, ⟨12, _⟩ => ⟨S5000x40, .f32⟩
  | .local _ .vmem, ⟨13, _⟩ => ⟨S1x40, .f32⟩
  | .local _ .vmem, ⟨14, _⟩ => ⟨S5000x40, .f32⟩
  | .local _ .vmem, ⟨15, _⟩ => ⟨S5000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_9 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x40_S16x40_0_0 : ∀ a, (![0, 0] : Fin 2 → Nat) a + S16x40.size a ≤ S16x40.size a
  h_S16x40 : 0 < S16x40.numel
  inb_S5000x40_S5000x40_0_0 : ∀ a, (![0, 0] : Fin 2 → Nat) a + S5000x40.size a ≤ S5000x40.size a
  h_S5000x40 : 0 < S5000x40.numel
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x512_S512x16_S5000x16_1_0_0_1_n_n_wf : DotDims.WF S5000x512 S512x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x40_S5000x40_1_0_0_1_n_n_wf : DotDims.WF S5000x16 S16x40 S5000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x40.size a ≤ S16x40.size a
  hwx1_2 : ∀ i : grid1.Coords, EltTy.bits .f32 = 32 ∨ (Rect.block (s := S16x40) S16x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x40.size a ≤ S100000x40.size a
  hwx1_3 : ∀ i : grid1.Coords, EltTy.bits .f32 = 32 ∨ (Rect.block (s := S100000x40) S5000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x40.size a ≤ S100000x40.size a
  hwx2_0 : ∀ i : grid2.Coords, EltTy.bits .f32 = 32 ∨ (Rect.block (s := S100000x40) S5000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x40.size a ≤ S1x40.size a
  hwx2_1 : ∀ i : grid2.Coords, EltTy.bits .f32 = 32 ∨ (Rect.block (s := S1x40) S1x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S100000x40.size a
  hwx2_2 : ∀ i : grid2.Coords, EltTy.bits .f32 = 32 ∨ (Rect.block (s := S100000x40) S5000x40.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x40_S5000x40_1_0_0_1_n_n : DotDims S5000x16 S16x40 S5000x40 where
  lhsContracting := [1]
  rhsContracting := [0]
  lhsNonContracting := [0]
  rhsNonContracting := [1]
  lhsBatch := []
  rhsBatch := []
  wf := dot_S5000x16_S16x40_S5000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S16x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S5000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x40 : Shape := ⟨2, ![100000, 40]⟩
abbrev S3300000x40 : Shape := ⟨2, ![3300000, 40]⟩
abbrev S1x40 : Shape := ⟨2, ![1, 40]⟩
abbrev S100000x1 : Shape := ⟨2, ![100000, 1]⟩

abbrev nBuf : Space → Nat
  | .hbm => 107
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S3200000, .f32⟩
  | .hbm, ⟨3, _⟩ => ⟨S512x16, .f32⟩
  | .hbm, ⟨4, _⟩ => ⟨S16, .f32⟩
  | .hbm, ⟨5, _⟩ => ⟨S16x40, .f32⟩
  | .hbm, ⟨6, _⟩ => ⟨S40, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S3300000x1, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x16, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S_, .f32⟩
  | .hbm, ⟨70, _⟩ => ⟨S100000x16, .f32⟩
  | .hbm, ⟨71, _⟩ => ⟨S100000x16, .f32⟩
  | .hbm, ⟨72, _⟩ => ⟨S100000x40, .f32⟩
  | .hbm, ⟨73, _⟩ => ⟨S3300000x1, .f32⟩
  | .hbm, ⟨74, _⟩ => ⟨S_, .i32⟩
  | .hbm, ⟨75, _⟩ => ⟨S3300000, .i32⟩
  | .hbm, ⟨76, _⟩ => ⟨S3300000, .i1⟩
  | .hbm, ⟨77, _⟩ => ⟨S_, .i32⟩
  | .hbm, ⟨78, _⟩ => ⟨S3300000, .i32⟩
  | .hbm, ⟨79, _⟩ => ⟨S3300000, .i32⟩
  | .hbm, ⟨80, _⟩ => ⟨S3300000, .i32⟩
  | .hbm, ⟨81, _⟩ => ⟨S3300000x1, .i32⟩
  | .hbm, ⟨82, _⟩ => ⟨S3300000x40, .f32⟩
  | .hbm, ⟨83, _⟩ => ⟨S3300000x40, .f32⟩
  | .hbm, ⟨84, _⟩ => ⟨S3300000x40, .f32⟩
  | .hbm, ⟨85, _⟩ => ⟨S_, .f32⟩
  | .hbm, ⟨86, _⟩ => ⟨S100000x40, .f32⟩
  | .hbm, ⟨87, _⟩ => ⟨S3300000x1, .i32⟩
  | .hbm, ⟨88, _⟩ => ⟨S100000x40, .f32⟩
  | .hbm, ⟨89, _⟩ => ⟨S1x40, .f32⟩
  | .hbm, ⟨90, _⟩ => ⟨S100000x40, .f32⟩
  | .hbm, ⟨91, _⟩ => ⟨S100000x40, .f32⟩
  | .hbm, ⟨92, _⟩ => ⟨S_, .f32⟩
  | .hbm, ⟨93, _⟩ => ⟨S100000, .f32⟩
  | .hbm, ⟨94, _⟩ => ⟨S_, .f32⟩
  | .hbm, ⟨95, _⟩ => ⟨S100000, .f32⟩
  | .hbm, ⟨96, _⟩ => ⟨S100000, .f32⟩
  | .hbm, ⟨97, _⟩ => ⟨S100000x1, .f32⟩
  | .hbm, ⟨98, _⟩ => ⟨S100000x40, .f32⟩
  | .hbm, ⟨99, _⟩ => ⟨S100000x40, .f32⟩
  | .hbm, ⟨100, _⟩ => ⟨S100000x40, .f32⟩
  | .hbm, ⟨101, _⟩ => ⟨S_, .f32⟩
  | .hbm, ⟨102, _⟩ => ⟨S100000, .f32⟩
  | .hbm, ⟨103, _⟩ => ⟨S100000x1, .f32⟩
  | .hbm, ⟨104, _⟩ => ⟨S100000x1, .f32⟩
  | .hbm, ⟨105, _⟩ => ⟨S100000x40, .f32⟩
  | .hbm, ⟨106, _⟩ => ⟨S100000x40, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_9 : Ref sig .tc := ⟨.hbm, 74, rfl⟩
abbrev main_v52 : Ref sig .tc := ⟨.hbm, 75, rfl⟩
abbrev main_v53 : Ref sig .tc := ⟨.hbm, 76, rfl⟩
abbrev main_c_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x40_S100000x40_1_0_0_1_n_n_wf : DotDims.WF S100000x16 S16x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.KernelRun.lean ====
/-
  The kernel program's run with its result named.

  The program is three pipelined regions among stretches of host operations. Its frame certificate follows every
  unscoped buffer through that chain: after the last region core `c`'s buffers hold `W8 m ρ c`. Read at the argument
  arrays that gives the frame claim; read also at the result array it gives this statement: every weakly fair
  execution terminates, nothing faulting, with the result array at `W8 m ρ c` and the arguments as launched. What
  `W8` holds at the result array is the business of the modules that read the regions.
-/
import proofs.«145352_j7876970020890_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result array at the last
    boundary's contents and the argument arrays as launched. -/
theorem run : θ_run defs (onTc (τ := τ) (main (F := F))) ⟨m, fun _ => 0, ρ⟩ (fun r => ∀ c : Dev nD,
      r.2.mem ((c.tc : Thread nD τ).loc main_v62) = W8 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v62 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.Result

end
-- ==== Proof.RowSpec.lean ====
/-
  The two row formulas of a two-layer graph convolution's dense parts, on the extended reals.

  * `hiddenDot row bias w`: the rectified biased row against one column of a weight matrix,
    `∑ k, max (row k + bias k) 0 * w k` — one entry of `relu (agg + b) · W`.
  * `logSoftmaxAt s q`: entry `q` of the log-softmax of a row `s`, in the shifted form
    `(s q - M) - log (∑ k, exp (s k - M))` with `M` the fold of `max` over the row from `-∞`.

  Two words: the f32 word of `-∞` denotes `⊥`, and a maximum with `⊥` on the left is the other operand — the
  one place where a host log-softmax (which clamps its row maximum from below by `-∞`) and the plain formula
  differ in spelling.
-/
import Idealize.ShloMosaic.PureOps.Ideal.Laws
import Idealize.ShloMosaic.Lib.ValueIdx

noncomputable section

namespace Cert.GcnRows

open Idealize.ShloMosaic Idealize.ShloMosaic.ValueIdx

/-- One entry of `relu (row + bias) · w`: the sum over the hidden axis. -/
def hiddenDot {n : ℕ} (row bias w : Fin n → EReal) : EReal :=
  ∑ k : Fin n, max (row k + bias k) 0 * w k

/-- The maximum of a row, folded from `-∞`. -/
def rowMax {n : ℕ} (s : Fin n → EReal) : EReal := (Finset.univ : Finset (Fin n)).fold max ⊥ s

/-- Entry `q` of the log-softmax of the row `s`, shifted by the row's maximum. -/
def logSoftmaxAt {n : ℕ} (s : Fin n → EReal) (q : Fin n) : EReal :=
  (s q - rowMax s) - Ideal.log (∑ k : Fin n, Ideal.exp (s k - rowMax s))

/-- The f32 word `0xFF800000` is `-∞`. -/
theorem ofBits_neg_inf : Ideal.ofBits .f32 0xFF800000#32 = (⊥ : EReal) := by
  simp [Ideal.ofBits, Ideal.ieee]

/-- Clamping from below by `-∞` changes nothing. -/
theorem max_bot_left (x : EReal) : max (⊥ : EReal) x = x := max_eq_right bot_le

/-! ## The three dense stages as whole-array functions -/

/-- An `[a, b]` array of extended reals. -/
abbrev Mat (a b : ℕ) : Type := (⟨2, ![a, b]⟩ : Shape).Idx → EReal
/-- An `[a]` vector of extended reals. -/
abbrev Vct (a : ℕ) : Type := (⟨1, ![a]⟩ : Shape).Idx → EReal

/-- The row and the column of a matrix index, typed by the extents. -/
def rowOf {a b : ℕ} (i : (⟨2, ![a, b]⟩ : Shape).Idx) : Fin a := ⟨(i 0).val, idx2_lt0 i⟩
def colOf {a b : ℕ} (i : (⟨2, ![a, b]⟩ : Shape).Idx) : Fin b := ⟨(i 1).val, idx2_lt1 i⟩

/-- `x · w`, entry by entry. -/
def matProd {a n b : ℕ} (x : Mat a n) (w : Mat n b) : Mat a b :=
  fun i => ∑ k : Fin n, x (ix2 (rowOf i) k) * w (ix2 k (colOf i))

/-- `relu (agg + bias) · w`, entry by entry, the bias a row `[1, n]`. -/
def hiddenProd {a n b : ℕ} (agg : Mat a n) (bias : Mat 1 n) (w : Mat n b) : Mat a b :=
  fun i => hiddenDot (fun k => agg (ix2 (rowOf i) k)) (fun k => bias (ix2 (0 : Fin 1) k)) (fun k => w (ix2 k (colOf i)))

/-- `log_softmax (agg + bias)` along the rows, entry by entry, the bias a row `[1, n]`. -/
def logSoftmaxRows {a n : ℕ} (agg : Mat a n) (bias : Mat 1 n) : Mat a n :=
  fun i => logSoftmaxAt (fun k => agg (ix2 (rowOf i) k) + bias (ix2 (0 : Fin 1) k)) (colOf i)

theorem matProd_apply {a n b : ℕ} (x : Mat a n) (w : Mat n b) (r : Fin a) (q : Fin b) :
    matProd x w (ix2 r q) = ∑ k : Fin n, x (ix2 r k) * w (ix2 k q) := rfl
theorem hiddenProd_apply {a n b : ℕ} (agg : Mat a n) (bias : Mat 1 n) (w : Mat n b) (r : Fin a) (q : Fin b) :
    hiddenProd agg bias w (ix2 r q)
      = hiddenDot (fun k => agg (ix2 r k)) (fun k => bias (ix2 (0 : Fin 1) k)) (fun k => w (ix2 k q)) := rfl
theorem logSoftmaxRows_apply {a n : ℕ} (agg : Mat a n) (bias : Mat 1 n) (r : Fin a) (q : Fin n) :
    logSoftmaxRows agg bias (ix2 r q) = logSoftmaxAt (fun k => agg (ix2 r k) + bias (ix2 (0 : Fin 1) k)) q := rfl

end Cert.GcnRows

end
-- ==== Proof.LibRowColDot.lean ====
/-
  A rows-by-columns matrix product read at an output index, at the ideal values.

  For dimension numbers that contract the second axis of an `[a, n]` left operand with the first axis of an
  `[n, b]` right operand into an `[a, b]` result, the entry `(p, q)` of the product is
  `∑ k : Fin n, lhs (p, k) * rhs (k, q)` — for the kernel's matrix unit accumulating into the zero splat
  (`matmul_rowcol`) and for the host's `dot_general` (`hostDot_rowcol`) alike. The two facts about the
  dimension numbers that are not read off a contracted axis (`hl0`, `hr1`: the kept coordinate of each
  operand index is the output's) are hypotheses: a caller has them by unfolding its literal record.
-/
import Idealize.ShloMosaic.PureOps.Ideal.Laws
import Idealize.ShloMosaic.Lib.ValueIdx

noncomputable section

namespace Cert.RowColDot

open Idealize.ShloMosaic Idealize.ShloMosaic.ValueIdx

variable {a n b : ℕ} {φ₁ φ₂ : FTy}

/-- The left operand's index at output `j` and contraction coordinate `k` is `(j 0, k)`. -/
theorem lhsIdx_eq (d : DotDims ⟨2, ![a, n]⟩ ⟨2, ![n, b]⟩ ⟨2, ![a, b]⟩)
    (hr : d.contr.rank = 1) (hs : d.contr.size ⟨0, by omega⟩ = n) (hcl : d.lhsContracting = [1])
    (hl0 : ∀ j q, (d.lhsIdx j q 0).val = (j 0).val) (j : (⟨2, ![a, b]⟩ : Shape).Idx) (k : Fin n) :
    d.lhsIdx j ((contrEquiv1 d n hr hs).symm k) = ix2 (j 0) k :=
  funext fun x => Fin.ext (by
    match x with
    | ⟨0, _⟩ => exact hl0 _ _
    | ⟨1, _⟩ => exact (d.lhsIdx_val_of_single hcl j _).trans (contrEquiv1_symm_val d n hr hs k))

/-- The right operand's index at output `j` and contraction coordinate `k` is `(k, j 1)`. -/
theorem rhsIdx_eq (d : DotDims ⟨2, ![a, n]⟩ ⟨2, ![n, b]⟩ ⟨2, ![a, b]⟩)
    (hr : d.contr.rank = 1) (hs : d.contr.size ⟨0, by omega⟩ = n) (hcr : d.rhsContracting = [0])
    (hr1 : ∀ j q, (d.rhsIdx j q 1).val = (j 1).val) (j : (⟨2, ![a, b]⟩ : Shape).Idx) (k : Fin n) :
    d.rhsIdx j ((contrEquiv1 d n hr hs).symm k) = ix2 k (j 1) :=
  funext fun x => Fin.ext (by
    match x with
    | ⟨0, _⟩ => exact (d.rhsIdx_val_of_single hcr j _).trans (contrEquiv1_symm_val d n hr hs k)
    | ⟨1, _⟩ => exact hr1 _ _)

/-- The matrix unit's product into the zero accumulator, at `(p, q)`: the sum over `k` of `lhs (p, k) * rhs (k, q)`. -/
theorem matmul_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    matmul d prec lhs rhs (constant ⟨2, ![a, b]⟩ .f32 0x00000000#32) j
      = ∑ k : Fin n, lhs (ix2 (j 0) k) * rhs (ix2 k (j 1)) := by
  show FloatOps.matmul d prec lhs rhs (constant ⟨2, ![a, b]⟩ .f32 0x00000000#32) j = _
  rw [Ideal.matmul_constant_zero_apply, ← Equiv.sum_comp (contrEquiv1 d n hr hs).symm]
  refine Finset.sum_congr rfl fun k _ => ?_
  rw [lhsIdx_eq d hr hs hcl hl0 j k, rhsIdx_eq d hr hs hcr hr1 j k]
  all_goals rfl

/-- The host's `dot_general` with the same dimension numbers, at `(p, q)`: the same sum. -/
theorem hostDot_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    Host.dotGeneral d prec lhs rhs j = ∑ k : Fin n, lhs (ix2 (j 0) k) * rhs (ix2 k (j 1)) := by
  simp only [Host.dotGeneral]
  rw [Ideal.dotGeneral_apply, ← Equiv.sum_comp (contrEquiv1 d n hr hs).symm]
  refine Finset.sum_congr rfl fun k _ => ?_
  rw [lhsIdx_eq d hr hs hcl hl0 j k, rhsIdx_eq d hr hs hcr hr1 j k]
  all_goals rfl

end Cert.RowColDot

end
-- ==== Proof.LibKeepdims.lean ====
/-
  Reading a matrix row by row, at indices given by coordinates.

  Three facts every `keepdims` row statistic needs: a vector `[a]` viewed as a column `[a, 1]` holds, at `(p, 0)`,
  the vector's entry `p`; a sum over the columns of an `[m, n]` array, read at row `p`, is the sum over `k : Fin n` of
  the entries `(p, k)`; and a maximum over the columns, read at row `p`, is the fold of `max` over those entries.
  The last two hold on the extended reals, where a reduction has no order of evaluation left in it.
-/
import Idealize.ShloMosaic.Lib.Pipeline.Value
import Idealize.ShloMosaic.Lib.ValueIdx
import Idealize.ShloMosaic.PureOps.Ideal.Laws

namespace Cert.MemAttn.Layout

open Idealize.ShloMosaic Idealize.ShloMosaic.ValueIdx

variable {α : Type}

/-- An `[a]` array cast to the column `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- Row `p` with the column coordinate `k` put back is the index `(p, k)`. -/
theorem lift_row {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A sum over the columns of an `[m, n]` array of extended reals, read at row `p`: the sum of that row's entries. -/
theorem multiReduction_add_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ) (hacc : acc = FKind.add.neutral φ hφ)
    (p : Fin m) :
    multiReduction .add [1] ⟨1, ![m]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the columns of an `[m, n]` array of extended reals, read at row `p`: the fold of `max`, from the
    accumulator's value, over that row's entries. -/
theorem multiReduction_maximumf_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.maximumf.neutral φ hφ) (p : Fin m) :
    multiReduction .maximumf [1] ⟨1, ![m]⟩ src acc h hφ hacc (ix1 p)
      = (Finset.univ : Finset (Fin n)).fold max (Ideal.ofBits φ acc) (fun k => src (ix2 p k)) :=
  (Ideal.multiReduction_maximumf_single src acc h hφ hacc (ix1 p)).trans
    (congrArg (fun f => (Finset.univ : Finset (Fin n)).fold max (Ideal.ofBits φ acc) f)
      (funext fun k => congrArg src (lift_row h p k)))

end Cert.MemAttn.Layout
-- ==== Proof.LibColumnBroadcast.lean ====
/-
  A column broadcast along its rows, read at an index given by coordinates: an `[a, 1]` array broadcast to `[a, b]`
  holds, at `(p, c)`, the column's entry `p` — the value does not depend on the column coordinate `c`. The
  companion of the row form (`[1, b]` to `[a, b]`, which does not depend on the row coordinate).
-/
import Idealize.ShloMosaic.Lib.Pipeline.Value
import Idealize.ShloMosaic.Lib.ValueIdx

namespace Cert.WeightUpdate.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.WeightUpdate.Layout
-- ==== Proof.Bodies.lean ====
/-
  The three kernel bodies read at one entry of their output block, on the extended reals.

  A body sees a block of 5000 rows. Entry `(p, q)` of what it stores depends only on row `p` of the row-blocked
  operand and on the small operands, which every grid point sees whole:
  * the first body is a matrix product: `∑ k, x (p, k) * W1 (k, q)` over the 512 input features (the two
    narrowings to bf16 are the identity on extended reals);
  * the second adds the bias row, rectifies, and multiplies by the second weight matrix: `hiddenDot` of row `p`;
  * the third adds the bias row and takes the row's log-softmax: its row maximum (a lane reduction from `-∞`),
    the shifted row, the lane sum of its exponentials, the logarithm, the second shift: `logSoftmaxAt`.
-/
import proofs.«145352_j7876970020890_1_alg».proof.Proof.Gen.KernelIdeal.Skeleton
import proofs.«145352_j7876970020890_1_alg».proof.Proof.RowSpec
import proofs.«145352_j7876970020890_1_alg».proof.Proof.LibRowColDot
import proofs.«145352_j7876970020890_1_alg».proof.Proof.LibKeepdims
import proofs.«145352_j7876970020890_1_alg».proof.Proof.LibColumnBroadcast
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Bodies

open Idealize.ShloMosaic Idealize.ShloMosaic.ValueIdx Cert.KernelIdeal Cert.KernelIdeal.Gen Cert.GcnRows

/-! ## The two products' dimension numbers: the kept coordinate of each operand index is the output's -/

theorem dot0_l0 (j : S5000x16.Idx) (q : dot_S5000x512_S512x16_S5000x16_1_0_0_1_n_n.contr.Idx) :
    (dot_S5000x512_S512x16_S5000x16_1_0_0_1_n_n.lhsIdx j q 0).val = (j 0).val := by
  unfold DotDims.lhsIdx
  rw [dif_neg (show ¬(0 : Fin S5000x512.rank) ∈ dot_S5000x512_S512x16_S5000x16_1_0_0_1_n_n.lhsBatch by decide),
    dif_pos (show (0 : Fin S5000x512.rank) ∈ dot_S5000x512_S512x16_S5000x16_1_0_0_1_n_n.lhsNonContracting by decide)]
  rfl

theorem dot0_r1 (j : S5000x16.Idx) (q : dot_S5000x512_S512x16_S5000x16_1_0_0_1_n_n.contr.Idx) :
    (dot_S5000x512_S512x16_S5000x16_1_0_0_1_n_n.rhsIdx j q 1).val = (j 1).val := by
  unfold DotDims.rhsIdx
  rw [dif_neg (show ¬(1 : Fin S512x16.rank) ∈ dot_S5000x512_S512x16_S5000x16_1_0_0_1_n_n.rhsBatch by decide),
    dif_pos (show (1 : Fin S512x16.rank) ∈ dot_S5000x512_S512x16_S5000x16_1_0_0_1_n_n.rhsNonContracting by decide)]
  rfl

theorem dot1_l0 (j : S5000x40.Idx) (q : dot_S5000x16_S16x40_S5000x40_1_0_0_1_n_n.contr.Idx) :
    (dot_S5000x16_S16x40_S5000x40_1_0_0_1_n_n.lhsIdx j q 0).val = (j 0).val := by
  unfold DotDims.lhsIdx
  rw [dif_neg (show ¬(0 : Fin S5000x16.rank) ∈ dot_S5000x16_S16x40_S5000x40_1_0_0_1_n_n.lhsBatch by decide),
    dif_pos (show (0 : Fin S5000x16.rank) ∈ dot_S5000x16_S16x40_S5000x40_1_0_0_1_n_n.lhsNonContracting by decide)]
  rfl

theorem dot1_r1 (j : S5000x40.Idx) (q : dot_S5000x16_S16x40_S5000x40_1_0_0_1_n_n.contr.Idx) :
    (dot_S5000x16_S16x40_S5000x40_1_0_0_1_n_n.rhsIdx j q 1).val = (j 1).val := by
  unfold DotDims.rhsIdx
  rw [dif_neg (show ¬(1 : Fin S16x40.rank) ∈ dot_S5000x16_S16x40_S5000x40_1_0_0_1_n_n.rhsBatch by decide),
    dif_pos (show (1 : Fin S16x40.rank) ∈ dot_S5000x16_S16x40_S5000x40_1_0_0_1_n_n.rhsNonContracting by decide)]
  rfl

/-! ## The first body: a block of `x · W1` -/

/-- Entry `(p, q)` of the first body's store: row `p` of the block of `x` against column `q` of `W1`. -/
theorem body0_apply (v0 : FVec Ideal S5000x512 .f32) (v2 : FVec Ideal S512x16 .f32) (p : Fin 5000) (q : Fin 16) :
    k0_pay1 (F := Ideal) v0 v2 (ix2 p q) = ∑ k : Fin 512, v0 (ix2 p k) * v2 (ix2 k q) := by
  unfold k0_pay1
  exact Cert.RowColDot.matmul_rowcol dot_S5000x512_S512x16_S5000x16_1_0_0_1_n_n rfl rfl rfl rfl dot0_l0 dot0_r1 none
    (truncf .bf16 v0 bitsLt_bf16_f32) (truncf .bf16 v2 bitsLt_bf16_f32) (ix2 p q)

/-! ## The second body: a block of `relu (agg + b1) · W2` -/

/-- The rectified biased block at `(p, k)`. -/
theorem hidden_apply (v0 : FVec Ideal S5000x16 .f32) (v2 : FVec Ideal S1x16 .f32) (p : Fin 5000) (k : Fin 16) :
    (truncf .bf16 (maximumf (addf (shapeCast S5000x16 v0 shapeCasts_S5000x16_S5000x16)
        (broadcastTo S5000x16 (shapeCast S1x16 v2 shapeCasts_S1x16_S1x16) broadcasts_S1x16_S5000x16))
      (broadcast S5000x16 (Scalar.ofBits (F := Ideal) .f32 0x00000000#32))) bitsLt_bf16_f32 : FVec Ideal S5000x16 .bf16) (ix2 p k)
      = max (v0 (ix2 p k) + v2 (ix2 (0 : Fin 1) k)) 0 := by
  rw [truncf_apply, maximumf_apply, addf_apply, broadcast_apply, shapeCast_self, shapeCast_self,
    broadcastTo_1b_ab_apply]
  exact congrArg (max _) Ideal.ofBits_zero_f32

/-- Entry `(p, q)` of the second body's store: `hiddenDot` of row `p`, the bias row and column `q` of `W2`. -/
theorem body1_apply (v0 : FVec Ideal S5000x16 .f32) (v2 : FVec Ideal S1x16 .f32) (v9 : FVec Ideal S16x40 .f32)
    (p : Fin 5000) (q : Fin 40) :
    k1_pay1 (F := Ideal) v0 v2 v9 (ix2 p q)
      = hiddenDot (fun k : Fin 16 => v0 (ix2 p k)) (fun k => v2 (ix2 (0 : Fin 1) k)) (fun k => v9 (ix2 k q)) := by
  unfold k1_pay1 hiddenDot
  refine (Cert.RowColDot.matmul_rowcol dot_S5000x16_S16x40_S5000x40_1_0_0_1_n_n rfl rfl rfl rfl dot1_l0 dot1_r1 none
    _ (truncf .bf16 v9 bitsLt_bf16_f32) (ix2 p q)).trans ?_
  refine Finset.sum_congr rfl fun k _ => ?_
  exact congrArg (· * v9 (ix2 k q)) (hidden_apply v0 v2 p k)

/-! ## The third body: a block of `log_softmax (agg + b2)` -/

/-- The biased block at `(p, k)`. -/
theorem biased_apply (v0 : FVec Ideal S5000x40 .f32) (v2 : FVec Ideal S1x40 .f32) (p : Fin 5000) (k : Fin 40) :
    addf (shapeCast S5000x40 v0 shapeCasts_S5000x40_S5000x40)
        (broadcastTo S5000x40 (shapeCast S1x40 v2 shapeCasts_S1x40_S1x40) broadcasts_S1x40_S5000x40) (ix2 p k)
      = v0 (ix2 p k) + v2 (ix2 (0 : Fin 1) k) := by
  rw [addf_apply, shapeCast_self, shapeCast_self, broadcastTo_1b_ab_apply]

/-- A per-row statistic `[5000]`, kept as a column and repeated along the 40 lanes, read at `(p, c)`. -/
theorem keepdims_apply (w : FVec Ideal S5000 .f32) (p : Fin 5000) (c : Fin 40) :
    broadcastTo S5000x40 (shapeCast S5000x1 w shapeCasts_S5000_S5000x1) broadcasts_S5000x1_S5000x40 (ix2 p c) = w (ix1 p) := by
  rw [Cert.WeightUpdate.Layout.broadcastTo_a1_ab_apply, Cert.MemAttn.Layout.shapeCast_a_a1_apply]

/-- The shifted row: the block minus its row maxima kept as a column, read at `(p, c)`. -/
theorem shifted_apply (z : FVec Ideal S5000x40 .f32) (hφ : FKind.Formats .f32)
    (hmx : (0xFF800000#32 : BitVec 32) = FKind.maximumf.neutral .f32 hφ) (p : Fin 5000) (c : Fin 40) :
    subf z (broadcastTo S5000x40 (shapeCast S5000x1
        (multiReduction (F := Ideal) .maximumf [1] S5000 z 0xFF800000#32 reduces_S5000x40_S5000 hφ hmx)
        shapeCasts_S5000_S5000x1) broadcasts_S5000x1_S5000x40) (ix2 p c)
      = z (ix2 p c) - rowMax (fun k : Fin 40 => z (ix2 p k)) := by
  rw [subf_apply, keepdims_apply]
  refine congrArg (z (ix2 p c) - ·) ?_
  refine (Cert.MemAttn.Layout.multiReduction_maximumf_row z 0xFF800000#32 reduces_S5000x40_S5000 hφ hmx p).trans ?_
  unfold rowMax
  rw [ofBits_neg_inf]

/-- The log-softmax of a block's rows as the body spells it — row maximum, shift, exponentials, lane sum, logarithm,
    second shift, the two row statistics kept as columns and repeated along the lanes — read at `(p, q)`. -/
theorem lsm_apply (z : FVec Ideal S5000x40 .f32) (hφ : FKind.Formats .f32)
    (hmx : (0xFF800000#32 : BitVec 32) = FKind.maximumf.neutral .f32 hφ)
    (hsm : (0x00000000#32 : BitVec 32) = FKind.add.neutral .f32 hφ) (p : Fin 5000) (q : Fin 40) :
    subf (subf z (broadcastTo S5000x40 (shapeCast S5000x1
          (multiReduction (F := Ideal) .maximumf [1] S5000 z 0xFF800000#32 reduces_S5000x40_S5000 hφ hmx)
          shapeCasts_S5000_S5000x1) broadcasts_S5000x1_S5000x40))
        (broadcastTo S5000x40 (log (shapeCast S5000x1
          (multiReduction (F := Ideal) .add [1] S5000 (exp (subf z (broadcastTo S5000x40 (shapeCast S5000x1
            (multiReduction (F := Ideal) .maximumf [1] S5000 z 0xFF800000#32 reduces_S5000x40_S5000 hφ hmx)
            shapeCasts_S5000_S5000x1) broadcasts_S5000x1_S5000x40))) 0x00000000#32 reduces_S5000x40_S5000 hφ hsm)
          shapeCasts_S5000_S5000x1)) broadcasts_S5000x1_S5000x40) (ix2 p q)
      = logSoftmaxAt (fun k : Fin 40 => z (ix2 p k)) q := by
  rw [subf_apply, shifted_apply z hφ hmx p q, Cert.WeightUpdate.Layout.broadcastTo_a1_ab_apply]
  unfold logSoftmaxAt
  refine congrArg ((z (ix2 p q) - rowMax fun k : Fin 40 => z (ix2 p k)) - ·) ?_
  show Ideal.log (shapeCast S5000x1 _ shapeCasts_S5000_S5000x1 (ix2 p (0 : Fin 1))) = _
  rw [Cert.MemAttn.Layout.shapeCast_a_a1_apply]
  refine congrArg Ideal.log ?_
  refine (Cert.MemAttn.Layout.multiReduction_add_row _ 0x00000000#32 reduces_S5000x40_S5000 hφ hsm p).trans ?_
  refine Finset.sum_congr rfl fun k _ => ?_
  show Ideal.exp _ = _
  rw [shifted_apply z hφ hmx p k]

/-- Entry `(p, q)` of the third body's store: the log-softmax of the biased row `p`, at lane `q`. -/
theorem body2_apply (v0 : FVec Ideal S5000x40 .f32) (v2 : FVec Ideal S1x40 .f32) (p : Fin 5000) (q : Fin 40) :
    k2_pay1 (F := Ideal) v0 v2 (ix2 p q)
      = logSoftmaxAt (fun k : Fin 40 => v0 (ix2 p k) + v2 (ix2 (0 : Fin 1) k)) q := by
  unfold k2_pay1
  exact (lsm_apply _ (.inl rfl) rfl rfl p q).trans
    (congrArg (logSoftmaxAt · q) (funext fun k => biased_apply v0 v2 p k))

end Cert.KernelIdeal.Bodies

end
-- ==== Proof.Region0.lean ====
/-
  The first region's output array: `x · W1`.

  The region walks 20 grid points; point `t` stages rows `5000 t … 5000 t + 4999` of `x` and all of `W1`, and writes back
  rows `5000 t … 5000 t + 4999` of its output. What it writes back is the block's rows against `W1` — rows
  `5000 t + p` of the whole product —, and the 20 blocks tile the output's 100000 rows, so the array ends holding
  `matProd x W1`. Stated at any contents `V` the region is entered from.
-/
import proofs.«145352_j7876970020890_1_alg».proof.Proof.Gen.KernelIdeal.Frame
import proofs.«145352_j7876970020890_1_alg».proof.Proof.Bodies
import proofs.«145352_j7876970020890_1_alg».proof.Proof.RowSpec
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen Cert.GcnRows

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-blocked windows sit at block `t`, the weight window at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The two arrays the region reads, as the region finds them. -/
abbrev xArr (c : Dev nD) : Mat 100000 512 := (V c main_arg0 : S100000x512.Idx → Elt Ideal .f32)
abbrev wArr (c : Dev nD) : Mat 512 16 := (V c main_arg3 : S512x16.Idx → Elt Ideal .f32)

/-- Row `p` of point `t`'s block of `x` is row `5000 t + p` of `x`. -/
theorem xblk_apply (c : Dev nD) (t : Fin cfg0.N) (p : Fin 5000) (k : Fin 512) (r : Fin 100000)
    (hr : r.val = t.val * 5000 + p.val) :
    (iblk0 V c 0 t : FVec Ideal S5000x512 .f32) (ix2 p k) = xArr V c (ix2 r k) := by
  obtain ⟨e0, e1, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 2) * 5000 + 1 * p.val = r.val; rw [e0, hr]; omega
  | ⟨1, _⟩ => show win0_0.index t (1 : Fin 2) * 512 + 1 * k.val = k.val; rw [e1]; omega

/-- Every point's block of `W1` is `W1`. -/
theorem wblk_apply (c : Dev nD) (t : Fin cfg0.N) (k : Fin 512) (q : Fin 16) :
    (iblk0 V c 1 t : FVec Ideal S512x16 .f32) (ix2 k q) = wArr V c (ix2 k q) := by
  obtain ⟨-, -, e2, e3, -⟩ := idx_facts t
  unfold iblk0
  rw [View.read_apply]
  show V c main_arg3 _ = V c main_arg3 _
  refine congrArg (V c main_arg3) (funext fun a => Fin.ext ?_)
  match a with
  | ⟨0, _⟩ => show win0_1.index t (0 : Fin 2) * 512 + 1 * k.val = k.val; rw [e2]; omega
  | ⟨1, _⟩ => show win0_1.index t (1 : Fin 2) * 16 + 1 * q.val = q.val; rw [e3]; omega

/-- Entry `(p, q)` of point `t`'s output block sits at `(5000 t + p, q)` of the output array. -/
theorem oblk_emb (t : Fin cfg0.N) (p : Fin 5000) (q : Fin 16) (r : Fin 100000) (hr : r.val = t.val * 5000 + p.val) :
    ((cfg0.win 2).blk t).view.emb (ix2 p q) = (ix2 r q : S100000x16.Idx) := by
  obtain ⟨-, -, -, -, e4, e5⟩ := idx_facts t
  refine funext fun a => Fin.ext ?_
  match a with
  | ⟨0, _⟩ => show win0_2.index t (0 : Fin 2) * 5000 + 1 * p.val = r.val; rw [e4, hr]; omega
  | ⟨1, _⟩ => show win0_2.index t (1 : Fin 2) * 16 + 1 * q.val = q.val; rw [e5]; omega

/-- What point `t` writes back is block `t` of `x · W1`. -/
theorem flushed_eq (c : Dev nD) (t : Fin cfg0.N) :
    (dat0 V c).flushed 2 t = ((cfg0.win 2).blk t).view.read (Elt Ideal) (matProd (xArr V c) (wArr V c)) := by
  show (cfg0.win 2).cut (grid0.coords t) ((dat0 V c).after 2 t) = _
  rw [after0_2]
  unfold out0_2
  rw [View.canon_unit_zero hz]
  simp only [View.ld_unit_zero (S := S5000x512) hz, View.ld_unit_zero (S := S512x16) hz]
  funext j
  obtain ⟨p, q, rfl⟩ : ∃ (p : Fin 5000) (q : Fin 16), j = ix2 p q := ⟨j 0, j 1, eq_ix2 j⟩
  have ht : t.val < 20 := Nat.lt_of_lt_of_eq t.isLt (show cfg0.N = 20 from N_0)
  have hp : p.val < 5000 := p.isLt
  let r : Fin 100000 := ⟨t.val * 5000 + p.val, by omega⟩
  rw [View.read_apply, oblk_emb t p q r rfl, matProd_apply]
  refine (Cert.KernelIdeal.Bodies.body0_apply (iblk0 V c 0 t) (iblk0 V c 1 t) p q).trans ?_
  refine Finset.sum_congr rfl fun k _ => ?_
  rw [xblk_apply V c t p k r rfl, wblk_apply V c t k q]

/-- An index of the output array is in point `t`'s block iff each coordinate is in the block's range. -/
theorem mem_blk (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v32).slice (win0_2.rect t)).set ↔ _
  rw [View.set_slice_whole, Rect.mem_set_unit]
  exact Iff.rfl

/-- The 20 blocks tile the output: row `r` is in block `r / 5000`. -/
theorem cover (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  let t : Fin cfg0.N := ⟨(i 0).val / 5000, by rw [show cfg0.N = 20 from N_0]; omega⟩
  obtain ⟨-, -, -, -, e4, e5⟩ := idx_facts t
  have e4' : win0_2.index t (0 : Fin 2) = (i 0).val / 5000 := e4
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 16 ≤ (i 1).val ∧ (i 1).val < win0_2.index t (1 : Fin 2) * 16 + 16; omega

/-- The output array after the region: `x · W1` of the arrays the region was entered with. -/
theorem final (c : Dev nD) : (dat0 V c).arrAt 2 cfg0.N = matProd (xArr V c) (wArr V c) :=
  (dat0 V c).arrAt_eq_of_cover 2 (matProd (xArr V c) (wArr V c)) (fun t _ => flushed_eq V c t) cover

end Cert.KernelIdeal.Region0

end
-- ==== Proof.Region1.lean ====
/-
  The second region's output array: `relu (agg1 + b1) · W2`.

  The region walks 20 grid points; point `t` stages rows `5000 t … 5000 t + 4999` of the first aggregate, the bias row and
  all of `W2`, and writes back the same rows of its output: each block row biased, rectified and multiplied by `W2`.
  The 20 blocks tile the output's 100000 rows, so the array ends holding `hiddenProd agg1 b1 W2`.
  Stated at any contents `V` the region is entered from.
-/
import proofs.«145352_j7876970020890_1_alg».proof.Proof.Gen.KernelIdeal.Frame
import proofs.«145352_j7876970020890_1_alg».proof.Proof.Bodies
import proofs.«145352_j7876970020890_1_alg».proof.Proof.RowSpec
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen Cert.GcnRows

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-blocked windows sit at block `t`, the bias and weight windows at block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The three arrays the region reads, as the region finds them. -/
abbrev aggArr (c : Dev nD) : Mat 100000 16 := (V c main_v45 : S100000x16.Idx → Elt Ideal .f32)
abbrev biasArr (c : Dev nD) : Mat 1 16 := (V c main_v46 : S1x16.Idx → Elt Ideal .f32)
abbrev wArr (c : Dev nD) : Mat 16 40 := (V c main_arg5 : S16x40.Idx → Elt Ideal .f32)

/-- Row `p` of point `t`'s block of the aggregate is row `5000 t + p` of the aggregate. -/
theorem ablk_apply (c : Dev nD) (t : Fin cfg1.N) (p : Fin 5000) (k : Fin 16) (r : Fin 100000)
    (hr : r.val = t.val * 5000 + p.val) :
    (iblk1 V c 0 t : FVec Ideal S5000x16 .f32) (ix2 p k) = aggArr V c (ix2 r k) := by
  obtain ⟨e0, e1, -⟩ := idx_facts t
  unfold iblk1
  rw [View.read_apply]
  show V c main_v45 _ = V c main_v45 _
  refine congrArg (V c main_v45) (funext fun a => Fin.ext ?_)
  match a with
  | ⟨0, _⟩ => show win1_0.index t (0 : Fin 2) * 5000 + 1 * p.val = r.val; rw [e0, hr]; omega
  | ⟨1, _⟩ => show win1_0.index t (1 : Fin 2) * 16 + 1 * k.val = k.val; rw [e1]; omega

/-- Every point's block of the bias row is the bias row. -/
theorem bblk_apply (c : Dev nD) (t : Fin cfg1.N) (u : Fin 1) (k : Fin 16) :
    (iblk1 V c 1 t : FVec Ideal S1x16 .f32) (ix2 u k) = biasArr V c (ix2 u k) := by
  obtain ⟨-, -, e2, e3, -⟩ := idx_facts t
  unfold iblk1
  rw [View.read_apply]
  show V c main_v46 _ = V c main_v46 _
  refine congrArg (V c main_v46) (funext fun a => Fin.ext ?_)
  match a with
  | ⟨0, _⟩ => show win1_1.index t (0 : Fin 2) * 1 + 1 * u.val = u.val; rw [e2]; omega
  | ⟨1, _⟩ => show win1_1.index t (1 : Fin 2) * 16 + 1 * k.val = k.val; rw [e3]; omega

/-- Every point's block of `W2` is `W2`. -/
theorem wblk_apply (c : Dev nD) (t : Fin cfg1.N) (k : Fin 16) (q : Fin 40) :
    (iblk1 V c 2 t : FVec Ideal S16x40 .f32) (ix2 k q) = wArr V c (ix2 k q) := by
  obtain ⟨-, -, -, -, e4, e5, -⟩ := idx_facts t
  unfold iblk1
  rw [View.read_apply]
  show V c main_arg5 _ = V c main_arg5 _
  refine congrArg (V c main_arg5) (funext fun a => Fin.ext ?_)
  match a with
  | ⟨0, _⟩ => show win1_2.index t (0 : Fin 2) * 16 + 1 * k.val = k.val; rw [e4]; omega
  | ⟨1, _⟩ => show win1_2.index t (1 : Fin 2) * 40 + 1 * q.val = q.val; rw [e5]; omega

/-- Entry `(p, q)` of point `t`'s output block sits at `(5000 t + p, q)` of the output array. -/
theorem oblk_emb (t : Fin cfg1.N) (p : Fin 5000) (q : Fin 40) (r : Fin 100000) (hr : r.val = t.val * 5000 + p.val) :
    ((cfg1.win 3).blk t).view.emb (ix2 p q) = (ix2 r q : S100000x40.Idx) := by
  obtain ⟨-, -, -, -, -, -, e6, e7⟩ := idx_facts t
  refine funext fun a => Fin.ext ?_
  match a with
  | ⟨0, _⟩ => show win1_3.index t (0 : Fin 2) * 5000 + 1 * p.val = r.val; rw [e6, hr]; omega
  | ⟨1, _⟩ => show win1_3.index t (1 : Fin 2) * 40 + 1 * q.val = q.val; rw [e7]; omega

/-- What point `t` writes back is block `t` of `relu (agg + b1) · W2`. -/
theorem flushed_eq (c : Dev nD) (t : Fin cfg1.N) :
    (dat1 V c).flushed 3 t
      = ((cfg1.win 3).blk t).view.read (Elt Ideal) (hiddenProd (aggArr V c) (biasArr V c) (wArr V c)) := by
  show (cfg1.win 3).cut (grid1.coords t) ((dat1 V c).after 3 t) = _
  rw [after1_3]
  unfold out1_3
  rw [View.canon_unit_zero hz]
  simp only [View.ld_unit_zero (S := S5000x16) hz, View.ld_unit_zero (S := S1x16) hz, View.ld_unit_zero (S := S16x40) hz]
  funext j
  obtain ⟨p, q, rfl⟩ : ∃ (p : Fin 5000) (q : Fin 40), j = ix2 p q := ⟨j 0, j 1, eq_ix2 j⟩
  have ht : t.val < 20 := Nat.lt_of_lt_of_eq t.isLt (show cfg1.N = 20 from N_1)
  have hp : p.val < 5000 := p.isLt
  let r : Fin 100000 := ⟨t.val * 5000 + p.val, by omega⟩
  rw [View.read_apply, oblk_emb t p q r rfl, hiddenProd_apply]
  refine (Cert.KernelIdeal.Bodies.body1_apply (iblk1 V c 0 t) (iblk1 V c 1 t) (iblk1 V c 2 t) p q).trans ?_
  unfold hiddenDot
  refine Finset.sum_congr rfl fun k _ => ?_
  beta_reduce
  rw [ablk_apply V c t p k r rfl, bblk_apply V c t 0 k, wblk_apply V c t k q]

/-- An index of the output array is in point `t`'s block iff each coordinate is in the block's range. -/
theorem mem_blk (t : Fin cfg1.N) (i : S100000x40.Idx) :
    i ∈ ((cfg1.win 3).blk t).view.set ↔ ∀ a : Fin 2, win1_3.index t a * S5000x40.size a ≤ (i a).val ∧ (i a).val < win1_3.index t a * S5000x40.size a + S5000x40.size a := by
  show i ∈ ((View.whole main_v47).slice (win1_3.rect t)).set ↔ _
  rw [View.set_slice_whole, Rect.mem_set_unit]
  exact Iff.rfl

/-- The 20 blocks tile the output: row `r` is in block `r / 5000`. -/
theorem cover (i : S100000x40.Idx) :
    ∃ t : Fin cfg1.N, (cfg1.win 3).flush t = true ∧ i ∈ ((cfg1.win 3).blk t).view.set := by
  have hi0 : (i 0).val < 100000 := (i 0).isLt
  have hi1 : (i 1).val < 40 := (i 1).isLt
  let t : Fin cfg1.N := ⟨(i 0).val / 5000, by rw [show cfg1.N = 20 from N_1]; omega⟩
  obtain ⟨-, -, -, -, -, -, e6, e7⟩ := idx_facts t
  have e6' : win1_3.index t (0 : Fin 2) = (i 0).val / 5000 := e6
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 40 ≤ (i 1).val ∧ (i 1).val < win1_3.index t (1 : Fin 2) * 40 + 40; omega

/-- The output array after the region: `relu (agg + b1) · W2` of the arrays the region was entered with. -/
theorem final (c : Dev nD) :
    (dat1 V c).arrAt 3 cfg1.N = hiddenProd (aggArr V c) (biasArr V c) (wArr V c) :=
  (dat1 V c).arrAt_eq_of_cover 3 (hiddenProd (aggArr V c) (biasArr V c) (wArr V c)) (fun t _ => flushed_eq V c t) cover

end Cert.KernelIdeal.Region1

end
-- ==== Proof.Region2.lean ====
/-
  The third region's output array: `log_softmax (agg2 + b2)` along the rows.

  The region walks 20 grid points; point `t` stages rows `5000 t … 5000 t + 4999` of the second aggregate and the bias row,
  and writes back the same rows of its output: each block row biased and passed through the log-softmax. A row's
  log-softmax reads only that row, so the 20 blocks, which tile the 100000 rows, leave `logSoftmaxRows agg2 b2`.
  Stated at any contents `V` the region is entered from.
-/
import proofs.«145352_j7876970020890_1_alg».proof.Proof.Gen.KernelIdeal.Frame
import proofs.«145352_j7876970020890_1_alg».proof.Proof.Bodies
import proofs.«145352_j7876970020890_1_alg».proof.Proof.RowSpec
import Idealize.ShloMosaic.Lib.Pipeline.Value
import Idealize.ShloMosaic.Lib.ValueIdx

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat)
open Cert.KernelIdeal Cert.KernelIdeal.Gen Cert.GcnRows

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-blocked windows sit at block `t`, the bias window at block 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The two arrays the region reads, as the region finds them. -/
abbrev aggArr (c : Dev nD) : Mat 100000 40 := (V c main_v60 : S100000x40.Idx → Elt Ideal .f32)
abbrev biasArr (c : Dev nD) : Mat 1 40 := (V c main_v61 : S1x40.Idx → Elt Ideal .f32)

/-- Row `p` of point `t`'s block of the aggregate is row `5000 t + p` of the aggregate. -/
theorem ablk_apply (c : Dev nD) (t : Fin cfg2.N) (p : Fin 5000) (k : Fin 40) (r : Fin 100000)
    (hr : r.val = t.val * 5000 + p.val) :
    (iblk2 V c 0 t : FVec Ideal S5000x40 .f32) (ix2 p k) = aggArr V c (ix2 r k) := by
  obtain ⟨e0, e1, -⟩ := idx_facts t
  unfold iblk2
  rw [View.read_apply]
  show V c main_v60 _ = V c main_v60 _
  refine congrArg (V c main_v60) (funext fun a => Fin.ext ?_)
  match a with
  | ⟨0, _⟩ => show win2_0.index t (0 : Fin 2) * 5000 + 1 * p.val = r.val; rw [e0, hr]; omega
  | ⟨1, _⟩ => show win2_0.index t (1 : Fin 2) * 40 + 1 * k.val = k.val; rw [e1]; omega

/-- Every point's block of the bias row is the bias row. -/
theorem bblk_apply (c : Dev nD) (t : Fin cfg2.N) (u : Fin 1) (k : Fin 40) :
    (iblk2 V c 1 t : FVec Ideal S1x40 .f32) (ix2 u k) = biasArr V c (ix2 u k) := by
  obtain ⟨-, -, e2, e3, -⟩ := idx_facts t
  unfold iblk2
  rw [View.read_apply]
  show V c main_v61 _ = V c main_v61 _
  refine congrArg (V c main_v61) (funext fun a => Fin.ext ?_)
  match a with
  | ⟨0, _⟩ => show win2_1.index t (0 : Fin 2) * 1 + 1 * u.val = u.val; rw [e2]; omega
  | ⟨1, _⟩ => show win2_1.index t (1 : Fin 2) * 40 + 1 * k.val = k.val; rw [e3]; omega

/-- Entry `(p, q)` of point `t`'s output block sits at `(5000 t + p, q)` of the output array. -/
theorem oblk_emb (t : Fin cfg2.N) (p : Fin 5000) (q : Fin 40) (r : Fin 100000) (hr : r.val = t.val * 5000 + p.val) :
    ((cfg2.win 2).blk t).view.emb (ix2 p q) = (ix2 r q : S100000x40.Idx) := by
  obtain ⟨-, -, -, -, e4, e5⟩ := idx_facts t
  refine funext fun a => Fin.ext ?_
  match a with
  | ⟨0, _⟩ => show win2_2.index t (0 : Fin 2) * 5000 + 1 * p.val = r.val; rw [e4, hr]; omega
  | ⟨1, _⟩ => show win2_2.index t (1 : Fin 2) * 40 + 1 * q.val = q.val; rw [e5]; omega

/-- What point `t` writes back is block `t` of `log_softmax (agg + b2)`. -/
theorem flushed_eq (c : Dev nD) (t : Fin cfg2.N) :
    (dat2 V c).flushed 2 t = ((cfg2.win 2).blk t).view.read (Elt Ideal) (logSoftmaxRows (aggArr V c) (biasArr V c)) := by
  show (cfg2.win 2).cut (grid2.coords t) ((dat2 V c).after 2 t) = _
  rw [after2_2]
  unfold out2_2
  rw [View.canon_unit_zero hz]
  conv_lhs => simp only [View.ld_unit_zero (S := S5000x40) hz, View.ld_unit_zero (S := S1x40) hz]
  funext j
  obtain ⟨p, q, rfl⟩ : ∃ (p : Fin 5000) (q : Fin 40), j = ix2 p q := ⟨j 0, j 1, eq_ix2 j⟩
  have ht : t.val < 20 := Nat.lt_of_lt_of_eq t.isLt (show cfg2.N = 20 from N_2)
  have hp : p.val < 5000 := p.isLt
  let r : Fin 100000 := ⟨t.val * 5000 + p.val, by omega⟩
  rw [View.read_apply, oblk_emb t p q r rfl, logSoftmaxRows_apply]
  refine Eq.trans ?_ (cast_eq _ _).symm
  refine (Cert.KernelIdeal.Bodies.body2_apply (iblk2 V c 0 t) (iblk2 V c 1 t) p q).trans ?_
  refine congrArg (logSoftmaxAt · q) (funext fun k => ?_)
  rw [ablk_apply V c t p k r rfl, bblk_apply V c t 0 k]

/-- An index of the output array is in point `t`'s block iff each coordinate is in the block's range. -/
theorem mem_blk (t : Fin cfg2.N) (i : S100000x40.Idx) :
    i ∈ ((cfg2.win 2).blk t).view.set ↔ ∀ a : Fin 2, win2_2.index t a * S5000x40.size a ≤ (i a).val ∧ (i a).val < win2_2.index t a * S5000x40.size a + S5000x40.size a := by
  show i ∈ ((View.whole main_v62).slice (win2_2.rect t)).set ↔ _
  rw [View.set_slice_whole, Rect.mem_set_unit]
  exact Iff.rfl

/-- The 20 blocks tile the output: row `r` is in block `r / 5000`. -/
theorem cover (i : S100000x40.Idx) :
    ∃ t : Fin cfg2.N, (cfg2.win 2).flush t = true ∧ i ∈ ((cfg2.win 2).blk t).view.set := by
  have hi0 : (i 0).val < 100000 := (i 0).isLt
  have hi1 : (i 1).val < 40 := (i 1).isLt
  let t : Fin cfg2.N := ⟨(i 0).val / 5000, by rw [show cfg2.N = 20 from N_2]; omega⟩
  obtain ⟨-, -, -, -, e4, e5⟩ := idx_facts t
  have e4' : win2_2.index t (0 : Fin 2) = (i 0).val / 5000 := e4
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 40 ≤ (i 1).val ∧ (i 1).val < win2_2.index t (1 : Fin 2) * 40 + 40; omega

/-- The output array after the region: `log_softmax (agg + b2)` of the arrays the region was entered with. -/
theorem final (c : Dev nD) : (dat2 V c).arrAt 2 cfg2.N = logSoftmaxRows (aggArr V c) (biasArr V c) :=
  (dat2 V c).arrAt_eq_of_cover 2 (logSoftmaxRows (aggArr V c) (biasArr V c)) (fun t _ => flushed_eq V c t) cover

end Cert.KernelIdeal.Region2

end
-- ==== Proof.Glue.lean ====
/-
  The sparse half of the graph convolution, as pure functions of arrays.

  Both programs compute, on the host and with the same operations in the same order:
  * the edge lists with one self-loop per node appended (`rowIdx`, `colIdx`: the targets and the sources) and the
    edge weights with a one appended per self-loop (`edgeW`);
  * the weighted degree of every node (a scatter-add of the weights at the targets), its inverse square root where
    the degree is positive and zero elsewhere (`dinv`), and the symmetric normalisation of every edge
    `dinv[row] · w · dinv[col]` (`edgeNorm`), each lookup a gather at an index wrapped once if negative (`wrapped`);
  * the aggregation of a node feature matrix `h`: every edge's source row of `h` (a gather), scaled by the edge's
    norm, added into the target's row of a zero matrix (a scatter-add) — at 16 features (`aggregate16`) and at 40
    (`aggregate40`).
  The gathers and scatter-adds stay closed here: the two programs apply the same ones to what their dense stages
  produce, and only that sameness is used.
-/
import proofs.«145352_j7876970020890_1_alg».proof.ReferenceIdeal
import proofs.«145352_j7876970020890_1_alg».proof.Proof.Gen.ReferenceIdeal

noncomputable section

namespace Cert.Glue

open Idealize.ShloMosaic Cert.ReferenceIdeal Cert.ReferenceIdeal.Facts₀

variable {F : FTy → Type} [FloatOps F]

/-- Row `k` of the `[2, E]` edge list followed by the node numbers `0 … N-1` (the self-loops): targets. -/
def rowIdx (e : IVec S2x3200000 32) : IVec S3300000 32 :=
  concatenate S3300000 0 [⟨S3200000, shapeCast S3200000 (extractStridedSlice S1x3200000 ![0, 0] e slices_S2x3200000_S1x3200000_0_0) shapeCasts_S1x3200000_S3200000⟩, ⟨S100000, iotaInDim S100000 32 0⟩] concatenates_S3200000_S100000_S3300000_d0

/-- The sources, with the self-loops. -/
def colIdx (e : IVec S2x3200000 32) : IVec S3300000 32 :=
  concatenate S3300000 0 [⟨S3200000, shapeCast S3200000 (extractStridedSlice S1x3200000 ![1, 0] e slices_S2x3200000_S1x3200000_1_0) shapeCasts_S1x3200000_S3200000⟩, ⟨S100000, iotaInDim S100000 32 0⟩] concatenates_S3200000_S100000_S3300000_d0

/-- The edge weights, a one per self-loop appended. -/
def edgeW (w : FVec F S3200000 .f32) : FVec F S3300000 .f32 :=
  concatenate S3300000 0 [⟨S3200000, w⟩, ⟨S100000, broadcastInDim S100000 ![] bcast_S_S100000 (constant (F := F) S_ .f32 0x3F800000#32)⟩] concatenates_S3200000_S100000_S3300000_d0

/-- An index vector made non-negative (a negative index counts from the end) and set as a column of start indices. -/
def wrapped (x : IVec S3300000 32) : IVec S3300000x1 32 :=
  broadcastInDim S3300000x1 ![0] bcast_S3300000_S3300000x1_0
    (select (cmpi .slt x (broadcastInDim S3300000 ![] bcast_S_S3300000 (constantI S_ 32 0#32)))
      (addi x (broadcastInDim S3300000 ![] bcast_S_S3300000 (constantI S_ 32 100000#32))) x)

/-- The weighted degree of every node. -/
def degree (e : IVec S2x3200000 32) (w : FVec F S3200000 .f32) : FVec F S100000 .f32 :=
  Host.scatterAdd scatter_S100000_S3300000x1_S3300000_n_0_0_1
    (broadcastInDim S100000 ![] bcast_S_S100000 (constant (F := F) S_ .f32 0x00000000#32))
    (broadcastInDim S3300000x1 ![0] bcast_S3300000_S3300000x1_0 (rowIdx e)) (edgeW w)

/-- `deg^(-1/2)` where the degree is positive, zero elsewhere. -/
def dinv (e : IVec S2x3200000 32) (w : FVec F S3200000 .f32) : FVec F S100000 .f32 :=
  select (cmpf .ogt (degree e w) (broadcastInDim S100000 ![] bcast_S_S100000 (constant (F := F) S_ .f32 0x00000000#32)))
    (Host.rsqrt (degree e w))
    (broadcastInDim S100000 ![] bcast_S_S100000 (constant (F := F) S_ .f32 0x00000000#32))

/-- The symmetric normalisation of every edge: `dinv[row] · w · dinv[col]`. -/
def edgeNorm (e : IVec S2x3200000 32) (w : FVec F S3200000 .f32) : FVec F S3300000 .f32 :=
  mulf (mulf (Host.gather gather_S100000_S3300000x1_S3300000_n_0_n_n_0_1_1 (dinv e w) (wrapped (rowIdx e))) (edgeW w))
    (Host.gather gather_S100000_S3300000x1_S3300000_n_0_n_n_0_1_1 (dinv e w) (wrapped (colIdx e)))

/-- The aggregation of a 16-feature node matrix along the edges. -/
def aggregate16 (nrm : FVec F S3300000 .f32) (row col : IVec S3300000 32) (h : FVec F S100000x16 .f32) : FVec F S100000x16 .f32 :=
  Host.scatterAdd scatter_S100000x16_S3300000x1_S3300000x16_1_0_0_1
    (broadcastInDim S100000x16 ![] bcast_S_S100000x16 (constant (F := F) S_ .f32 0x00000000#32))
    (broadcastInDim S3300000x1 ![0] bcast_S3300000_S3300000x1_0 row)
    (mulf (broadcastInDim S3300000x16 ![0, 1] bcast_S3300000x1_S3300000x16_0_1 (broadcastInDim S3300000x1 ![0] bcast_S3300000_S3300000x1_0 nrm))
      (Host.gather gather_S100000x16_S3300000x1_S3300000x16_1_0_n_n_0_1_116 h (wrapped col)))

/-- The aggregation of a 40-feature node matrix along the edges. -/
def aggregate40 (nrm : FVec F S3300000 .f32) (row col : IVec S3300000 32) (h : FVec F S100000x40 .f32) : FVec F S100000x40 .f32 :=
  Host.scatterAdd scatter_S100000x40_S3300000x1_S3300000x40_1_0_0_1
    (broadcastInDim S100000x40 ![] bcast_S_S100000x40 (constant (F := F) S_ .f32 0x00000000#32))
    (broadcastInDim S3300000x1 ![0] bcast_S3300000_S3300000x1_0 row)
    (mulf (broadcastInDim S3300000x40 ![0, 1] bcast_S3300000x1_S3300000x40_0_1 (broadcastInDim S3300000x1 ![0] bcast_S3300000_S3300000x1_0 nrm))
      (Host.gather gather_S100000x40_S3300000x1_S3300000x40_1_0_n_n_0_1_140 h (wrapped col)))

end Cert.Glue

end
-- ==== Proof.KernelHost.lean ====
/-
  The kernel program's host stretches, each as a function of what it is entered with.

  Between its three regions the program runs three stretches of host operations: the edge normalisation before the
  first region, and after each of the first two regions the aggregation of that region's output along the edges
  (with the next bias vector reshaped to a row). Each stretch is read here over an ARBITRARY incoming valuation `V`:
  the buffers it computes are the glue functions of the buffers it reads, and the buffers it does not write are
  kept. Nothing is said yet about what `V` holds.
-/
import proofs.«145352_j7876970020890_1_alg».proof.Proof.Gen.KernelIdeal.Launch
import proofs.«145352_j7876970020890_1_alg».proof.Proof.Glue
import Idealize.ShloMosaic.Lib.StableHlo.Run

set_option maxRecDepth 16384

noncomputable section

namespace Cert.KernelIdeal.HostStretch

open Idealize.ShloMosaic Idealize.ShloMosaic.TcCoe Idealize.ShloMosaic.StableHlo Idealize.SL.Sem
open Cert.KernelIdeal Cert.KernelIdeal.Gen

variable {F : FTy → Type} [FloatOps F] (V : Valuation τ sig (Elt F))

/-- The contents after the three lists that make up the first stretch. -/
abbrev afterNorm : Valuation τ sig (Elt F) := after hostOps0_2 (after hostOps0_1 (after hostOps0 V))

/-! ## The first stretch: targets, sources, edge norms -/

set_option maxHeartbeats 1000000 in
theorem norm_row : afterNorm V (Proc.devRef .tc main_v3) = Cert.Glue.rowIdx (V (Proc.devRef .tc main_arg1)) := by
  dsimp only [afterNorm, hostOps0, hostOps0_1, hostOps0_2]
  after_results_simp
  rfl

set_option maxHeartbeats 1000000 in
theorem norm_col : afterNorm V (Proc.devRef .tc main_v6) = Cert.Glue.colIdx (V (Proc.devRef .tc main_arg1)) := by
  dsimp only [afterNorm, hostOps0, hostOps0_1, hostOps0_2]
  after_results_simp
  rfl

set_option maxHeartbeats 2000000 in
theorem norm_edge : afterNorm V (Proc.devRef .tc main_v31) = Cert.Glue.edgeNorm (V (Proc.devRef .tc main_arg1)) (V (Proc.devRef .tc main_arg2)) := by
  dsimp only [afterNorm, hostOps0, hostOps0_1, hostOps0_2]
  after_results_simp
  rfl

set_option maxHeartbeats 1000000 in
theorem norm_keep_arg0 : afterNorm V (Proc.devRef .tc main_arg0) = V (Proc.devRef .tc main_arg0) := by
  dsimp only [afterNorm, hostOps0, hostOps0_1, hostOps0_2]
  after_results_simp

set_option maxHeartbeats 1000000 in
theorem norm_keep_arg3 : afterNorm V (Proc.devRef .tc main_arg3) = V (Proc.devRef .tc main_arg3) := by
  dsimp only [afterNorm, hostOps0, hostOps0_1, hostOps0_2]
  after_results_simp

set_option maxHeartbeats 1000000 in
theorem norm_keep_arg4 : afterNorm V (Proc.devRef .tc main_arg4) = V (Proc.devRef .tc main_arg4) := by
  dsimp only [afterNorm, hostOps0, hostOps0_1, hostOps0_2]
  after_results_simp

set_option maxHeartbeats 1000000 in
theorem norm_keep_arg5 : afterNorm V (Proc.devRef .tc main_arg5) = V (Proc.devRef .tc main_arg5) := by
  dsimp only [afterNorm, hostOps0, hostOps0_1, hostOps0_2]
  after_results_simp

set_option maxHeartbeats 1000000 in
theorem norm_keep_arg6 : afterNorm V (Proc.devRef .tc main_arg6) = V (Proc.devRef .tc main_arg6) := by
  dsimp only [afterNorm, hostOps0, hostOps0_1, hostOps0_2]
  after_results_simp

/-! ## The second stretch: the first aggregation, and the first bias as a row -/

set_option maxHeartbeats 1000000 in
theorem agg1_out : after hostOps1 V (Proc.devRef .tc main_v45)
    = Cert.Glue.aggregate16 (V (Proc.devRef .tc main_v31)) (V (Proc.devRef .tc main_v3)) (V (Proc.devRef .tc main_v6)) (V (Proc.devRef .tc main_v32)) := by
  dsimp only [hostOps1]
  after_results
  rfl

theorem agg1_bias : after hostOps1 V (Proc.devRef .tc main_v46) = shapeCast S1x16 (V (Proc.devRef .tc main_arg4)) shapeCasts_S16_S1x16 := by
  dsimp only [hostOps1]
  after_results
  rfl

theorem agg1_keep_v31 : after hostOps1 V (Proc.devRef .tc main_v31) = V (Proc.devRef .tc main_v31) := by
  dsimp only [hostOps1]
  after_results

theorem agg1_keep_v3 : after hostOps1 V (Proc.devRef .tc main_v3) = V (Proc.devRef .tc main_v3) := by
  dsimp only [hostOps1]
  after_results

theorem agg1_keep_v6 : after hostOps1 V (Proc.devRef .tc main_v6) = V (Proc.devRef .tc main_v6) := by
  dsimp only [hostOps1]
  after_results

theorem agg1_keep_arg5 : after hostOps1 V (Proc.devRef .tc main_arg5) = V (Proc.devRef .tc main_arg5) := by
  dsimp only [hostOps1]
  after_results

theorem agg1_keep_arg6 : after hostOps1 V (Proc.devRef .tc main_arg6) = V (Proc.devRef .tc main_arg6) := by
  dsimp only [hostOps1]
  after_results

/-! ## The third stretch: the second aggregation, and the second bias as a row -/

set_option maxHeartbeats 1000000 in
theorem agg2_out : after hostOps2 V (Proc.devRef .tc main_v60)
    = Cert.Glue.aggregate40 (V (Proc.devRef .tc main_v31)) (V (Proc.devRef .tc main_v3)) (V (Proc.devRef .tc main_v6)) (V (Proc.devRef .tc main_v47)) := by
  dsimp only [hostOps2]
  after_results
  rfl

theorem agg2_bias : after hostOps2 V (Proc.devRef .tc main_v61) = shapeCast S1x40 (V (Proc.devRef .tc main_arg6)) shapeCasts_S40_S1x40 := by
  dsimp only [hostOps2]
  after_results
  rfl

end Cert.KernelIdeal.HostStretch

end
-- ==== Proof.Spec.lean ====
/-
  The two-layer graph convolution with a log-softmax head, as one function of its seven arguments.

  `forward x e w W1 b1 W2 b2 = log_softmax (A (relu (A (x · W1) + b1) · W2) + b2)`, where `A` aggregates a node feature
  matrix along the normalised edges of the graph `(e, w)` with self-loops. The dense stages are the row formulas of
  the row module; the aggregation is the glue's, closed. A bias vector enters as the row `[1, n]` both programs make
  of it.
-/
import proofs.«145352_j7876970020890_1_alg».proof.Proof.RowSpec
import proofs.«145352_j7876970020890_1_alg».proof.Proof.Glue
import Idealize.ShloMosaic.Lib.ValueLayout

noncomputable section

namespace Cert.Gcn

open Idealize.ShloMosaic Idealize.ShloMosaic.ValueIdx Cert.GcnRows Cert.Glue Cert.ReferenceIdeal

/-- A vector as the one row of a `[1, n]` matrix. -/
def rowVec {n : ℕ} (b : Vct n) : Mat 1 n := fun i => b (ix1 (colOf i))

theorem rowVec_apply {n : ℕ} (b : Vct n) (u : Fin 1) (k : Fin n) : rowVec b (ix2 u k) = b (ix1 k) := rfl

/-- A vector reshaped to `[1, n]` is that row. -/
theorem shapeCast_rowVec {n : ℕ} (b : Vct n) (h : (⟨1, ![n]⟩ : Shape).ShapeCasts ⟨2, ![1, n]⟩) :
    shapeCast ⟨2, ![1, n]⟩ b h = rowVec b := by
  funext i
  obtain ⟨u, k, rfl⟩ : ∃ (u : Fin 1) (k : Fin n), i = ix2 u k := ⟨i 0, i 1, eq_ix2 i⟩
  rw [shapeCast_a_1a_apply, rowVec_apply]

/-- The first layer's aggregate: `A (x · W1)`. -/
def layer1 (x : FVec Ideal S100000x512 .f32) (e : IVec S2x3200000 32) (w : FVec Ideal S3200000 .f32)
    (w1 : FVec Ideal S512x16 .f32) : FVec Ideal S100000x16 .f32 :=
  aggregate16 (edgeNorm e w) (rowIdx e) (colIdx e) (matProd x w1)

/-- The second layer's aggregate: `A (relu (layer1 + b1) · W2)`. -/
def layer2 (x : FVec Ideal S100000x512 .f32) (e : IVec S2x3200000 32) (w : FVec Ideal S3200000 .f32)
    (w1 : FVec Ideal S512x16 .f32) (b1 : FVec Ideal S16 .f32) (w2 : FVec Ideal S16x40 .f32) : FVec Ideal S100000x40 .f32 :=
  aggregate40 (edgeNorm e w) (rowIdx e) (colIdx e) (hiddenProd (layer1 x e w w1) (rowVec b1) w2)

/-- The network's output: `log_softmax (layer2 + b2)` along the rows. -/
def forward (x : FVec Ideal S100000x512 .f32) (e : IVec S2x3200000 32) (w : FVec Ideal S3200000 .f32)
    (w1 : FVec Ideal S512x16 .f32) (b1 : FVec Ideal S16 .f32) (w2 : FVec Ideal S16x40 .f32) (b2 : FVec Ideal S40 .f32) :
    FVec Ideal S100000x40 .f32 :=
  logSoftmaxRows (layer2 x e w w1 b1 w2) (rowVec b2)

end Cert.Gcn

end
-- ==== Proof.KernelChain.lean ====
/-
  What the kernel program leaves in its result array.

  The frame certificate names core `c`'s buffers at every boundary of the program: `W3` when the first region is
  entered, `W4` when it is left, `W5` … `W8` after the later stretches and regions. Walking that chain: the first
  stretch leaves the edge norms, targets and sources (and keeps the arguments); the first region leaves `x · W1`; the
  second stretch aggregates it and reshapes the first bias; the second region leaves `relu (· + b1) · W2`; the third
  stretch aggregates that and reshapes the second bias; the third region leaves the log-softmax of the biased
  aggregate. So the result array ends at `forward` of the launch arguments.
-/
import proofs.«145352_j7876970020890_1_alg».proof.Proof.Gen.KernelIdeal.Frame
import proofs.«145352_j7876970020890_1_alg».proof.Proof.Region0
import proofs.«145352_j7876970020890_1_alg».proof.Proof.Region1
import proofs.«145352_j7876970020890_1_alg».proof.Proof.Region2
import proofs.«145352_j7876970020890_1_alg».proof.Proof.KernelHost
import proofs.«145352_j7876970020890_1_alg».proof.Proof.Spec

set_option maxRecDepth 16384

noncomputable section

namespace Cert.KernelIdeal.Chain

open Idealize.ShloMosaic Idealize.ShloMosaic.TcCoe Idealize.ShloMosaic.StableHlo Idealize.ShloMosaic.ValueIdx Idealize.SL.Sem
open Cert.KernelIdeal Cert.KernelIdeal.Gen Cert.KernelIdeal.HostStretch Cert.GcnRows Cert.Gcn

variable (m : (ℓ : Loc nD τ sig) → Buf (Elt Ideal) ℓ) (ρ : Dev nD → PrngReg) (c : Dev nD)

/-! ## At the first region's entry -/

theorem w3_arg0 : W3 m ρ c (Proc.devRef .tc main_arg0) = (m ((c : Thread nD τ).loc main_arg0)) := norm_keep_arg0 (W0 m ρ c)
theorem w3_arg3 : W3 m ρ c (Proc.devRef .tc main_arg3) = (m ((c : Thread nD τ).loc main_arg3)) := norm_keep_arg3 (W0 m ρ c)
theorem w3_arg4 : W3 m ρ c (Proc.devRef .tc main_arg4) = (m ((c : Thread nD τ).loc main_arg4)) := norm_keep_arg4 (W0 m ρ c)
theorem w3_arg5 : W3 m ρ c (Proc.devRef .tc main_arg5) = (m ((c : Thread nD τ).loc main_arg5)) := norm_keep_arg5 (W0 m ρ c)
theorem w3_arg6 : W3 m ρ c (Proc.devRef .tc main_arg6) = (m ((c : Thread nD τ).loc main_arg6)) := norm_keep_arg6 (W0 m ρ c)
theorem w3_edge : W3 m ρ c (Proc.devRef .tc main_v31) = Cert.Glue.edgeNorm (F := Ideal) (m ((c : Thread nD τ).loc main_arg1)) (m ((c : Thread nD τ).loc main_arg2)) := norm_edge (W0 m ρ c)
theorem w3_row : W3 m ρ c (Proc.devRef .tc main_v3) = Cert.Glue.rowIdx (m ((c : Thread nD τ).loc main_arg1)) := norm_row (W0 m ρ c)
theorem w3_col : W3 m ρ c (Proc.devRef .tc main_v6) = Cert.Glue.colIdx (m ((c : Thread nD τ).loc main_arg1)) := norm_col (W0 m ρ c)

/-! ## After the first region -/

theorem w4_proj : W4 m ρ c (Proc.devRef .tc main_v32) = matProd (m ((c : Thread nD τ).loc main_arg0)) (m ((c : Thread nD τ).loc main_arg3)) := by
  refine (W4_arr m ρ c 2).trans ((Cert.KernelIdeal.Region0.final (V3 m ρ) c).trans ?_)
  show matProd (W3 m ρ c (Proc.devRef .tc main_arg0)) (W3 m ρ c (Proc.devRef .tc main_arg3)) = _
  rw [w3_arg0, w3_arg3]

theorem w4_edge : W4 m ρ c (Proc.devRef .tc main_v31) = Cert.Glue.edgeNorm (F := Ideal) (m ((c : Thread nD τ).loc main_arg1)) (m ((c : Thread nD τ).loc main_arg2)) :=
  (W4_of_ne m ρ c main_v31 (by decide)).trans (w3_edge m ρ c)
theorem w4_row : W4 m ρ c (Proc.devRef .tc main_v3) = Cert.Glue.rowIdx (m ((c : Thread nD τ).loc main_arg1)) :=
  (W4_of_ne m ρ c main_v3 (by decide)).trans (w3_row m ρ c)
theorem w4_col : W4 m ρ c (Proc.devRef .tc main_v6) = Cert.Glue.colIdx (m ((c : Thread nD τ).loc main_arg1)) :=
  (W4_of_ne m ρ c main_v6 (by decide)).trans (w3_col m ρ c)
theorem w4_arg4 : W4 m ρ c (Proc.devRef .tc main_arg4) = (m ((c : Thread nD τ).loc main_arg4)) :=
  (W4_of_ne m ρ c main_arg4 (by decide)).trans (w3_arg4 m ρ c)
theorem w4_arg5 : W4 m ρ c (Proc.devRef .tc main_arg5) = (m ((c : Thread nD τ).loc main_arg5)) :=
  (W4_of_ne m ρ c main_arg5 (by decide)).trans (w3_arg5 m ρ c)
theorem w4_arg6 : W4 m ρ c (Proc.devRef .tc main_arg6) = (m ((c : Thread nD τ).loc main_arg6)) :=
  (W4_of_ne m ρ c main_arg6 (by decide)).trans (w3_arg6 m ρ c)

/-! ## At the second region's entry -/

theorem w5_agg : W5 m ρ c (Proc.devRef .tc main_v45) = layer1 (m ((c : Thread nD τ).loc main_arg0)) (m ((c : Thread nD τ).loc main_arg1)) (m ((c : Thread nD τ).loc main_arg2)) (m ((c : Thread nD τ).loc main_arg3)) := by
  refine (agg1_out (W4 m ρ c)).trans ?_
  rw [w4_edge, w4_row, w4_col, w4_proj]
  rfl
theorem w5_bias : W5 m ρ c (Proc.devRef .tc main_v46) = rowVec (m ((c : Thread nD τ).loc main_arg4)) := by
  refine (agg1_bias (W4 m ρ c)).trans ?_
  rw [w4_arg4]
  exact shapeCast_rowVec _ _
theorem w5_edge : W5 m ρ c (Proc.devRef .tc main_v31) = Cert.Glue.edgeNorm (F := Ideal) (m ((c : Thread nD τ).loc main_arg1)) (m ((c : Thread nD τ).loc main_arg2)) :=
  (agg1_keep_v31 (W4 m ρ c)).trans (w4_edge m ρ c)
theorem w5_row : W5 m ρ c (Proc.devRef .tc main_v3) = Cert.Glue.rowIdx (m ((c : Thread nD τ).loc main_arg1)) :=
  (agg1_keep_v3 (W4 m ρ c)).trans (w4_row m ρ c)
theorem w5_col : W5 m ρ c (Proc.devRef .tc main_v6) = Cert.Glue.colIdx (m ((c : Thread nD τ).loc main_arg1)) :=
  (agg1_keep_v6 (W4 m ρ c)).trans (w4_col m ρ c)
theorem w5_arg5 : W5 m ρ c (Proc.devRef .tc main_arg5) = (m ((c : Thread nD τ).loc main_arg5)) :=
  (agg1_keep_arg5 (W4 m ρ c)).trans (w4_arg5 m ρ c)
theorem w5_arg6 : W5 m ρ c (Proc.devRef .tc main_arg6) = (m ((c : Thread nD τ).loc main_arg6)) :=
  (agg1_keep_arg6 (W4 m ρ c)).trans (w4_arg6 m ρ c)

/-! ## After the second region -/

theorem w6_proj : W6 m ρ c (Proc.devRef .tc main_v47)
    = hiddenProd (layer1 (m ((c : Thread nD τ).loc main_arg0)) (m ((c : Thread nD τ).loc main_arg1)) (m ((c : Thread nD τ).loc main_arg2)) (m ((c : Thread nD τ).loc main_arg3))) (rowVec (m ((c : Thread nD τ).loc main_arg4))) (m ((c : Thread nD τ).loc main_arg5)) := by
  refine (W6_arr m ρ c 3).trans ((Cert.KernelIdeal.Region1.final (V5 m ρ) c).trans ?_)
  show hiddenProd (W5 m ρ c (Proc.devRef .tc main_v45)) (W5 m ρ c (Proc.devRef .tc main_v46)) (W5 m ρ c (Proc.devRef .tc main_arg5)) = _
  rw [w5_agg, w5_bias, w5_arg5]

theorem w6_edge : W6 m ρ c (Proc.devRef .tc main_v31) = Cert.Glue.edgeNorm (F := Ideal) (m ((c : Thread nD τ).loc main_arg1)) (m ((c : Thread nD τ).loc main_arg2)) :=
  (W6_of_ne m ρ c main_v31 (by decide)).trans (w5_edge m ρ c)
theorem w6_row : W6 m ρ c (Proc.devRef .tc main_v3) = Cert.Glue.rowIdx (m ((c : Thread nD τ).loc main_arg1)) :=
  (W6_of_ne m ρ c main_v3 (by decide)).trans (w5_row m ρ c)
theorem w6_col : W6 m ρ c (Proc.devRef .tc main_v6) = Cert.Glue.colIdx (m ((c : Thread nD τ).loc main_arg1)) :=
  (W6_of_ne m ρ c main_v6 (by decide)).trans (w5_col m ρ c)
theorem w6_arg6 : W6 m ρ c (Proc.devRef .tc main_arg6) = (m ((c : Thread nD τ).loc main_arg6)) :=
  (W6_of_ne m ρ c main_arg6 (by decide)).trans (w5_arg6 m ρ c)

/-! ## At the third region's entry, and after it -/

theorem w7_agg : W7 m ρ c (Proc.devRef .tc main_v60)
    = layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (agg2_out (W6 m ρ c)).trans ?_
  rw [w6_edge, w6_row, w6_col, w6_proj]
  rfl
theorem w7_bias : W7 m ρ c (Proc.devRef .tc main_v61) = rowVec (m ((c : Thread nD τ).loc main_arg6)) := by
  refine (agg2_bias (W6 m ρ c)).trans ?_
  rw [w6_arg6]
  exact shapeCast_rowVec _ _

/-- The result array after the program: the network's output on the launch arguments. -/
theorem result : W8 m ρ c (Proc.devRef .tc main_v62)
    = forward (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 2).trans ((Cert.KernelIdeal.Region2.final (V7 m ρ) c).trans ?_)
  show logSoftmaxRows (W7 m ρ c (Proc.devRef .tc main_v60)) (W7 m ρ c (Proc.devRef .tc main_v61)) = _
  rw [w7_agg, w7_bias]
  rfl

end Cert.KernelIdeal.Chain

end
-- ==== Proof.RefChain.lean ====
/-
  The reference program's run, read back one stretch at a time.

  The reference is one line of 100 host operations. Its run ends with every buffer at the fold of the operations'
  results over the launch contents (`raw_run`). The line is cut where the kernel program has its regions: the edge
  normalisation; the first product and the first aggregation; the bias, the rectifier, the second product and the
  second aggregation; the bias and the log-softmax. Each stretch is read over an ARBITRARY incoming valuation: what it
  computes is a glue function, or a dense stage (`proj1Host`, `proj2Host`, `logitsHost`), of what it reads, and what it
  does not write is kept. `result_eq` composes the four.
-/
import proofs.«145352_j7876970020890_1_alg».proof.ReferenceIdeal
import proofs.«145352_j7876970020890_1_alg».proof.Proof.Gen.ReferenceIdeal
import proofs.«145352_j7876970020890_1_alg».proof.Proof.Glue
import Idealize.ShloMosaic.Lib.StableHlo.Run

noncomputable section

namespace Cert.ReferenceIdeal.Chain

open Cert.ReferenceIdeal Cert.ReferenceIdeal.Gen Idealize.ShloMosaic Idealize.ShloMosaic.TcCoe Idealize.SL.Sem Idealize.ShloMosaic.StableHlo

variable {F : FTy → Type} [FloatOps F]

/-! ## The dense stages, as the host spells them -/

/-- `x · W1` on the host. -/
def proj1Host (x : FVec F S100000x512 .f32) (w : FVec F S512x16 .f32) : FVec F S100000x16 .f32 :=
  Host.dotGeneral dot_S100000x512_S512x16_S100000x16_1_0_0_1_n_n none x w

/-- `relu (agg + b1) · W2` on the host: the bias set as a row and repeated along the rows. -/
def proj2Host (a : FVec F S100000x16 .f32) (b : FVec F S16 .f32) (w : FVec F S16x40 .f32) : FVec F S100000x40 .f32 :=
  Host.dotGeneral dot_S100000x16_S16x40_S100000x40_1_0_0_1_n_n none
    (maximumf (addf a (broadcastInDim S100000x16 ![0, 1] bcast_S1x16_S100000x16_0_1 (broadcastInDim S1x16 ![1] bcast_S16_S1x16_1 b)))
      (broadcastInDim S100000x16 ![] bcast_S_S100000x16 (constant (F := F) S_ .f32 0x00000000#32))) w

/-- The biased second aggregate. -/
def biasedHost (a : FVec F S100000x40 .f32) (b : FVec F S40 .f32) : FVec F S100000x40 .f32 :=
  addf a (broadcastInDim S100000x40 ![0, 1] bcast_S1x40_S100000x40_0_1 (broadcastInDim S1x40 ![1] bcast_S40_S1x40_1 b))

/-- The row maxima, clamped from below by `-∞`, as the host's log-softmax takes them. -/
def rowMaxHost (z : FVec F S100000x40 .f32) : FVec F S100000 .f32 :=
  maximumf (broadcastInDim S100000 ![] bcast_S_S100000 (constant (F := F) S_ .f32 0xFF800000#32))
    (Host.reduce FloatOps.maximumf z (constant (F := F) S_ .f32 0xFF800000#32) reducesTo_S100000x40_S100000_d1 h_S_)

/-- The rows shifted by their maxima. -/
def shiftedHost (z : FVec F S100000x40 .f32) : FVec F S100000x40 .f32 :=
  subf z (broadcastInDim S100000x40 ![0, 1] bcast_S100000x1_S100000x40_0_1 (broadcastInDim S100000x1 ![0] bcast_S100000_S100000x1_0 (rowMaxHost z)))

/-- `log_softmax` along the rows, on the host. -/
def logSoftmaxHost (z : FVec F S100000x40 .f32) : FVec F S100000x40 .f32 :=
  subf (shiftedHost z) (broadcastInDim S100000x40 ![0, 1] bcast_S100000x1_S100000x40_0_1
    (Host.log (broadcastInDim S100000x1 ![0] bcast_S100000_S100000x1_0
      (Host.reduceAdd (Host.exp (shiftedHost z)) (constant (F := F) S_ .f32 0x00000000#32) reducesTo_S100000x40_S100000_d1 h_S_))))

/-! ## The line of operations and its raw run -/

/-- @main's 100 operations, in order (a called function's operations stand in its call's place, spelt `TRef.…`). -/
abbrev ops : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S100000 ![] bcast_S_S100000 : (⟨S_, .f32⟩ : BufTy).Contents (Elt F) → (⟨S100000, .f32⟩ : BufTy).Contents (Elt F)),
    binary main_arg2 main_v7 main_v8 ((fun a b => concatenate S3300000 0 [⟨S3200000, a⟩, ⟨S100000, b⟩] concatenates_S3200000_S100000_S3300000_d0) : (⟨S3200000, .f32⟩ : BufTy).Contents (Elt F) → (⟨S100000, .f32⟩ : BufTy).Contents (Elt F) → (⟨S3300000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v3 main_v10 (broadcastInDim S3300000x1 ![0] bcast_S3300000_S3300000x1_0 : (⟨S3300000, .i32⟩ : BufTy).Contents (Elt F) → (⟨S3300000x1, .i32⟩ : BufTy).Contents (Elt F)),
    ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select,
    nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v3 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v18 (broadcastInDim S3300000 ![] bcast_S_S3300000 : (⟨S_, .i32⟩ : BufTy).Contents (Elt F) → (⟨S3300000, .i32⟩ : BufTy).Contents (Elt F)),
    binary main_v3 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v3 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v8 main_v23 (mulf : (⟨S3300000, .f32⟩ : BufTy).Contents (Elt F) → (⟨S3300000, .f32⟩ : BufTy).Contents (Elt F) → (⟨S3300000, .f32⟩ : BufTy).Contents (Elt F)),
    nullary main_c_4 (constantI S_ 32 0#32),
    unary main_c_4 main_v24 (broadcastInDim S3300000 ![] bcast_S_S3300000 : (⟨S_, .i32⟩ : BufTy).Contents (Elt F) → (⟨S3300000, .i32⟩ : BufTy).Contents (Elt F)),
    binary main_v6 main_v24 main_v25 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v26 (broadcastInDim S3300000 ![] bcast_S_S3300000 : (⟨S_, .i32⟩ : BufTy).Contents (Elt F) → (⟨S3300000, .i32⟩ : BufTy).Contents (Elt F)),
    binary main_v6 main_v26 main_v27 (addi : (⟨S3300000, .i32⟩ : BufTy).Contents (Elt F) → (⟨S3300000, .i32⟩ : BufTy).Contents (Elt F) → (⟨S3300000, .i32⟩ : BufTy).Contents (Elt F)),
    ternary main_v25 main_v27 main_v6 main_v28 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v28 main_v29 (broadcastInDim S3300000x1 ![0] bcast_S3300000_S3300000x1_0 : (⟨S3300000, .i32⟩ : BufTy).Contents (Elt F) → (⟨S3300000x1, .i32⟩ : BufTy).Contents (Elt F)),
    binary main_v15 main_v29 main_v30 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v23 main_v30 main_v31 (mulf : (⟨S3300000, .f32⟩ : BufTy).Contents (Elt F) → (⟨S3300000, .f32⟩ : BufTy).Contents (Elt F) → (⟨S3300000, .f32⟩ : BufTy).Contents (Elt F)),
    binary main_arg0 main_arg3 main_v32 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    unary main_v31 main_v33 (broadcastInDim S3300000x1 ![0] bcast_S3300000_S3300000x1_0 : (⟨S3300000, .f32⟩ : BufTy).Contents (Elt F) → (⟨S3300000x1, .f32⟩ : BufTy).Contents (Elt F)),
    nullary main_c_6 (constantI S_ 32 0#32),
    unary main_c_6 main_v34 (broadcastInDim S3300000 ![] bcast_S_S3300000 : (⟨S_, .i32⟩ : BufTy).Contents (Elt F) → (⟨S3300000, .i32⟩ : BufTy).Contents (Elt F)),
    binary main_v6 main_v34 main_v35 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v36 (broadcastInDim S3300000 ![] bcast_S_S3300000 : (⟨S_, .i32⟩ : BufTy).Contents (Elt F) → (⟨S3300000, .i32⟩ : BufTy).Contents (Elt F)),
    binary main_v6 main_v36 main_v37 (addi : (⟨S3300000, .i32⟩ : BufTy).Contents (Elt F) → (⟨S3300000, .i32⟩ : BufTy).Contents (Elt F) → (⟨S3300000, .i32⟩ : BufTy).Contents (Elt F)),
    ternary main_v35 main_v37 main_v6 main_v38 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v38 main_v39 (broadcastInDim S3300000x1 ![0] bcast_S3300000_S3300000x1_0 : (⟨S3300000, .i32⟩ : BufTy).Contents (Elt F) → (⟨S3300000x1, .i32⟩ : BufTy).Contents (Elt F)),
    binary main_v32 main_v39 main_v40 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v33 main_v41 (broadcastInDim S3300000x16 ![0, 1] bcast_S3300000x1_S3300000x16_0_1 : (⟨S3300000x1, .f32⟩ : BufTy).Contents (Elt F) → (⟨S3300000x16, .f32⟩ : BufTy).Contents (Elt F)),
    binary main_v41 main_v40 main_v42 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v43 (broadcastInDim S100000x16 ![] bcast_S_S100000x16 : (⟨S_, .f32⟩ : BufTy).Contents (Elt F) → (⟨S100000x16, .f32⟩ : BufTy).Contents (Elt F)),
    unary main_v3 main_v44 (broadcastInDim S3300000x1 ![0] bcast_S3300000_S3300000x1_0 : (⟨S3300000, .i32⟩ : BufTy).Contents (Elt F) → (⟨S3300000x1, .i32⟩ : BufTy).Contents (Elt F)),
    ternary main_v43 main_v44 main_v42 main_v45 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg4 main_v46 (broadcastInDim S1x16 ![1] bcast_S16_S1x16_1 : (⟨S16, .f32⟩ : BufTy).Contents (Elt F) → (⟨S1x16, .f32⟩ : BufTy).Contents (Elt F)),
    unary main_v46 main_v47 (broadcastInDim S100000x16 ![0, 1] bcast_S1x16_S100000x16_0_1 : (⟨S1x16, .f32⟩ : BufTy).Contents (Elt F) → (⟨S100000x16, .f32⟩ : BufTy).Contents (Elt F)),
    binary main_v45 main_v47 main_v48 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v48) (TRef.of (T := ⟨S100000x16, .f32⟩) main_call1_v0) (TRef.of (T := ⟨S100000x16, .f32⟩) main_v49) maximumf,
    binary main_v49 main_arg5 main_v50 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)),
    unary main_v31 main_v51 (broadcastInDim S3300000x1 ![0] bcast_S3300000_S3300000x1_0 : (⟨S3300000, .f32⟩ : BufTy).Contents (Elt F) → (⟨S3300000x1, .f32⟩ : BufTy).Contents (Elt F)),
    nullary main_c_9 (constantI S_ 32 0#32),
    unary main_c_9 main_v52 (broadcastInDim S3300000 ![] bcast_S_S3300000 : (⟨S_, .i32⟩ : BufTy).Contents (Elt F) → (⟨S3300000, .i32⟩ : BufTy).Contents (Elt F)),
    binary main_v6 main_v52 main_v53 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v54 (broadcastInDim S3300000 ![] bcast_S_S3300000 : (⟨S_, .i32⟩ : BufTy).Contents (Elt F) → (⟨S3300000, .i32⟩ : BufTy).Contents (Elt F)),
    binary main_v6 main_v54 main_v55 (addi : (⟨S3300000, .i32⟩ : BufTy).Contents (Elt F) → (⟨S3300000, .i32⟩ : BufTy).Contents (Elt F) → (⟨S3300000, .i32⟩ : BufTy).Contents (Elt F)),
    ternary main_v53 main_v55 main_v6 main_v56 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v56 main_v57 (broadcastInDim S3300000x1 ![0] bcast_S3300000_S3300000x1_0 : (⟨S3300000, .i32⟩ : BufTy).Contents (Elt F) → (⟨S3300000x1, .i32⟩ : BufTy).Contents (Elt F)),
    binary main_v50 main_v57 main_v58 ((fun x i => Host.gather gather_S100000x40_S3300000x1_S3300000x40_1_0_n_n_0_1_140 x i) : (⟨S100000x40, .f32⟩ : BufTy).Contents (Elt F) → (⟨S3300000x1, .i32⟩ : BufTy).Contents (Elt F) → (⟨S3300000x40, .f32⟩ : BufTy).Contents (Elt F)),
    unary main_v51 main_v59 (broadcastInDim S3300000x40 ![0, 1] bcast_S3300000x1_S3300000x40_0_1 : (⟨S3300000x1, .f32⟩ : BufTy).Contents (Elt F) → (⟨S3300000x40, .f32⟩ : BufTy).Contents (Elt F)),
    binary main_v59 main_v58 main_v60 (mulf : (⟨S3300000x40, .f32⟩ : BufTy).Contents (Elt F) → (⟨S3300000x40, .f32⟩ : BufTy).Contents (Elt F) → (⟨S3300000x40, .f32⟩ : BufTy).Contents (Elt F)),
    nullary main_cst_11 (constant S_ .f32 0x00000000#32),
    unary main_cst_11 main_v61 (broadcastInDim S100000x40 ![] bcast_S_S100000x40 : (⟨S_, .f32⟩ : BufTy).Contents (Elt F) → (⟨S100000x40, .f32⟩ : BufTy).Contents (Elt F)),
    unary main_v3 main_v62 (broadcastInDim S3300000x1 ![0] bcast_S3300000_S3300000x1_0 : (⟨S3300000, .i32⟩ : BufTy).Contents (Elt F) → (⟨S3300000x1, .i32⟩ : BufTy).Contents (Elt F)),
    ternary main_v61 main_v62 main_v60 main_v63 ((fun x i u => Host.scatterAdd scatter_S100000x40_S3300000x1_S3300000x40_1_0_0_1 x i u) : (⟨S100000x40, .f32⟩ : BufTy).Contents (Elt F) → (⟨S3300000x1, .i32⟩ : BufTy).Contents (Elt F) → (⟨S3300000x40, .f32⟩ : BufTy).Contents (Elt F) → (⟨S100000x40, .f32⟩ : BufTy).Contents (Elt F)),
    unary main_arg6 main_v64 (broadcastInDim S1x40 ![1] bcast_S40_S1x40_1 : (⟨S40, .f32⟩ : BufTy).Contents (Elt F) → (⟨S1x40, .f32⟩ : BufTy).Contents (Elt F)),
    unary main_v64 main_v65 (broadcastInDim S100000x40 ![0, 1] bcast_S1x40_S100000x40_0_1 : (⟨S1x40, .f32⟩ : BufTy).Contents (Elt F) → (⟨S100000x40, .f32⟩ : BufTy).Contents (Elt F)),
    binary main_v63 main_v65 main_v66 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call2_cst) (constant S_ .f32 0xFF800000#32),
    TRef.binary (TRef.of (T := ⟨S100000x40, .f32⟩) main_v66) (TRef.of (T := ⟨S_, .f32⟩) main_call2_cst) (TRef.of (T := ⟨S100000, .f32⟩) main_call2_v0) (fun x v => Host.reduce FloatOps.maximumf x v reducesTo_S100000x40_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x40, .f32⟩) main_call2_v4) (broadcastInDim S100000x40 ![0, 1] bcast_S100000x1_S100000x40_0_1),
    TRef.binary (TRef.of (T := ⟨S100000x40, .f32⟩) main_v66) (TRef.of (T := ⟨S100000x40, .f32⟩) main_call2_v4) (TRef.of (T := ⟨S100000x40, .f32⟩) main_call2_v5) subf,
    TRef.unary (TRef.of (T := ⟨S100000x40, .f32⟩) main_call2_v5) (TRef.of (T := ⟨S100000x40, .f32⟩) main_call2_v6) Host.exp,
    TRef.nullary (TRef.of (T := ⟨S_, .f32⟩) main_call2_cst_1) (constant S_ .f32 0x00000000#32),
    TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x40, .f32⟩) main_call2_v10) (broadcastInDim S100000x40 ![0, 1] bcast_S100000x1_S100000x40_0_1),
    TRef.binary (TRef.of (T := ⟨S100000x40, .f32⟩) main_call2_v5) (TRef.of (T := ⟨S100000x40, .f32⟩) main_call2_v10) (TRef.of (T := ⟨S100000x40, .f32⟩) main_v67) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- Every weakly fair execution of the reference terminates, nothing faulting, with every buffer at the fold of the
    operations' results over the launch contents. -/
theorem raw_run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

/-! ## The four stretches -/

/-- A line run in two parts. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-- Operations 1–42: targets, sources, edge norms. -/
abbrev opsNorm : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S100000 ![] bcast_S_S100000 : (⟨S_, .f32⟩ : BufTy).Contents (Elt F) → (⟨S100000, .f32⟩ : BufTy).Contents (Elt F)),
    binary main_arg2 main_v7 main_v8 ((fun a b => concatenate S3300000 0 [⟨S3200000, a⟩, ⟨S100000, b⟩] concatenates_S3200000_S100000_S3300000_d0) : (⟨S3200000, .f32⟩ : BufTy).Contents (Elt F) → (⟨S100000, .f32⟩ : BufTy).Contents (Elt F) → (⟨S3300000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v3 main_v10 (broadcastInDim S3300000x1 ![0] bcast_S3300000_S3300000x1_0 : (⟨S3300000, .i32⟩ : BufTy).Contents (Elt F) → (⟨S3300000x1, .i32⟩ : BufTy).Contents (Elt F)),
    ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select,
    nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v3 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v18 (broadcastInDim S3300000 ![] bcast_S_S3300000 : (⟨S_, .i32⟩ : BufTy).Contents (Elt F) → (⟨S3300000, .i32⟩ : BufTy).Contents (Elt F)),
    binary main_v3 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v3 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v8 main_v23 (mulf : (⟨S3300000, .f32⟩ : BufTy).Contents (Elt F) → (⟨S3300000, .f32⟩ : BufTy).Contents (Elt F) → (⟨S3300000, .f32⟩ : BufTy).Contents (Elt F)),
    nullary main_c_4 (constantI S_ 32 0#32),
    unary main_c_4 main_v24 (broadcastInDim S3300000 ![] bcast_S_S3300000 : (⟨S_, .i32⟩ : BufTy).Contents (Elt F) → (⟨S3300000, .i32⟩ : BufTy).Contents (Elt F)),
    binary main_v6 main_v24 main_v25 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v26 (broadcastInDim S3300000 ![] bcast_S_S3300000 : (⟨S_, .i32⟩ : BufTy).Contents (Elt F) → (⟨S3300000, .i32⟩ : BufTy).Contents (Elt F)),
    binary main_v6 main_v26 main_v27 (addi : (⟨S3300000, .i32⟩ : BufTy).Contents (Elt F) → (⟨S3300000, .i32⟩ : BufTy).Contents (Elt F) → (⟨S3300000, .i32⟩ : BufTy).Contents (Elt F)),
    ternary main_v25 main_v27 main_v6 main_v28 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v28 main_v29 (broadcastInDim S3300000x1 ![0] bcast_S3300000_S3300000x1_0 : (⟨S3300000, .i32⟩ : BufTy).Contents (Elt F) → (⟨S3300000x1, .i32⟩ : BufTy).Contents (Elt F)),
    binary main_v15 main_v29 main_v30 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v23 main_v30 main_v31 (mulf : (⟨S3300000, .f32⟩ : BufTy).Contents (Elt F) → (⟨S3300000, .f32⟩ : BufTy).Contents (Elt F) → (⟨S3300000, .f32⟩ : BufTy).Contents (Elt F)) ]
/-- Operations 43–59: the first product and its aggregation. -/
abbrev opsLayer1 : List (HloOp τ sig (Elt F)) :=
  [ binary main_arg0 main_arg3 main_v32 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    unary main_v31 main_v33 (broadcastInDim S3300000x1 ![0] bcast_S3300000_S3300000x1_0 : (⟨S3300000, .f32⟩ : BufTy).Contents (Elt F) → (⟨S3300000x1, .f32⟩ : BufTy).Contents (Elt F)),
    nullary main_c_6 (constantI S_ 32 0#32),
    unary main_c_6 main_v34 (broadcastInDim S3300000 ![] bcast_S_S3300000 : (⟨S_, .i32⟩ : BufTy).Contents (Elt F) → (⟨S3300000, .i32⟩ : BufTy).Contents (Elt F)),
    binary main_v6 main_v34 main_v35 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v36 (broadcastInDim S3300000 ![] bcast_S_S3300000 : (⟨S_, .i32⟩ : BufTy).Contents (Elt F) → (⟨S3300000, .i32⟩ : BufTy).Contents (Elt F)),
    binary main_v6 main_v36 main_v37 (addi : (⟨S3300000, .i32⟩ : BufTy).Contents (Elt F) → (⟨S3300000, .i32⟩ : BufTy).Contents (Elt F) → (⟨S3300000, .i32⟩ : BufTy).Contents (Elt F)),
    ternary main_v35 main_v37 main_v6 main_v38 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v38 main_v39 (broadcastInDim S3300000x1 ![0] bcast_S3300000_S3300000x1_0 : (⟨S3300000, .i32⟩ : BufTy).Contents (Elt F) → (⟨S3300000x1, .i32⟩ : BufTy).Contents (Elt F)),
    binary main_v32 main_v39 main_v40 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v33 main_v41 (broadcastInDim S3300000x16 ![0, 1] bcast_S3300000x1_S3300000x16_0_1 : (⟨S3300000x1, .f32⟩ : BufTy).Contents (Elt F) → (⟨S3300000x16, .f32⟩ : BufTy).Contents (Elt F)),
    binary main_v41 main_v40 main_v42 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v43 (broadcastInDim S100000x16 ![] bcast_S_S100000x16 : (⟨S_, .f32⟩ : BufTy).Contents (Elt F) → (⟨S100000x16, .f32⟩ : BufTy).Contents (Elt F)),
    unary main_v3 main_v44 (broadcastInDim S3300000x1 ![0] bcast_S3300000_S3300000x1_0 : (⟨S3300000, .i32⟩ : BufTy).Contents (Elt F) → (⟨S3300000x1, .i32⟩ : BufTy).Contents (Elt F)),
    ternary main_v43 main_v44 main_v42 main_v45 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)) ]
/-- Operations 60–82: bias, rectifier, the second product and its aggregation. -/
abbrev opsLayer2 : List (HloOp τ sig (Elt F)) :=
  [ unary main_arg4 main_v46 (broadcastInDim S1x16 ![1] bcast_S16_S1x16_1 : (⟨S16, .f32⟩ : BufTy).Contents (Elt F) → (⟨S1x16, .f32⟩ : BufTy).Contents (Elt F)),
    unary main_v46 main_v47 (broadcastInDim S100000x16 ![0, 1] bcast_S1x16_S100000x16_0_1 : (⟨S1x16, .f32⟩ : BufTy).Contents (Elt F) → (⟨S100000x16, .f32⟩ : BufTy).Contents (Elt F)),
    binary main_v45 main_v47 main_v48 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v48) (TRef.of (T := ⟨S100000x16, .f32⟩) main_call1_v0) (TRef.of (T := ⟨S100000x16, .f32⟩) main_v49) maximumf,
    binary main_v49 main_arg5 main_v50 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)),
    unary main_v31 main_v51 (broadcastInDim S3300000x1 ![0] bcast_S3300000_S3300000x1_0 : (⟨S3300000, .f32⟩ : BufTy).Contents (Elt F) → (⟨S3300000x1, .f32⟩ : BufTy).Contents (Elt F)),
    nullary main_c_9 (constantI S_ 32 0#32),
    unary main_c_9 main_v52 (broadcastInDim S3300000 ![] bcast_S_S3300000 : (⟨S_, .i32⟩ : BufTy).Contents (Elt F) → (⟨S3300000, .i32⟩ : BufTy).Contents (Elt F)),
    binary main_v6 main_v52 main_v53 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v54 (broadcastInDim S3300000 ![] bcast_S_S3300000 : (⟨S_, .i32⟩ : BufTy).Contents (Elt F) → (⟨S3300000, .i32⟩ : BufTy).Contents (Elt F)),
    binary main_v6 main_v54 main_v55 (addi : (⟨S3300000, .i32⟩ : BufTy).Contents (Elt F) → (⟨S3300000, .i32⟩ : BufTy).Contents (Elt F) → (⟨S3300000, .i32⟩ : BufTy).Contents (Elt F)),
    ternary main_v53 main_v55 main_v6 main_v56 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v56 main_v57 (broadcastInDim S3300000x1 ![0] bcast_S3300000_S3300000x1_0 : (⟨S3300000, .i32⟩ : BufTy).Contents (Elt F) → (⟨S3300000x1, .i32⟩ : BufTy).Contents (Elt F)),
    binary main_v50 main_v57 main_v58 ((fun x i => Host.gather gather_S100000x40_S3300000x1_S3300000x40_1_0_n_n_0_1_140 x i) : (⟨S100000x40, .f32⟩ : BufTy).Contents (Elt F) → (⟨S3300000x1, .i32⟩ : BufTy).Contents (Elt F) → (⟨S3300000x40, .f32⟩ : BufTy).Contents (Elt F)),
    unary main_v51 main_v59 (broadcastInDim S3300000x40 ![0, 1] bcast_S3300000x1_S3300000x40_0_1 : (⟨S3300000x1, .f32⟩ : BufTy).Contents (Elt F) → (⟨S3300000x40, .f32⟩ : BufTy).Contents (Elt F)),
    binary main_v59 main_v58 main_v60 (mulf : (⟨S3300000x40, .f32⟩ : BufTy).Contents (Elt F) → (⟨S3300000x40, .f32⟩ : BufTy).Contents (Elt F) → (⟨S3300000x40, .f32⟩ : BufTy).Contents (Elt F)),
    nullary main_cst_11 (constant S_ .f32 0x00000000#32),
    unary main_cst_11 main_v61 (broadcastInDim S100000x40 ![] bcast_S_S100000x40 : (⟨S_, .f32⟩ : BufTy).Contents (Elt F) → (⟨S100000x40, .f32⟩ : BufTy).Contents (Elt F)),
    unary main_v3 main_v62 (broadcastInDim S3300000x1 ![0] bcast_S3300000_S3300000x1_0 : (⟨S3300000, .i32⟩ : BufTy).Contents (Elt F) → (⟨S3300000x1, .i32⟩ : BufTy).Contents (Elt F)),
    ternary main_v61 main_v62 main_v60 main_v63 ((fun x i u => Host.scatterAdd scatter_S100000x40_S3300000x1_S3300000x40_1_0_0_1 x i u) : (⟨S100000x40, .f32⟩ : BufTy).Contents (Elt F) → (⟨S3300000x1, .i32⟩ : BufTy).Contents (Elt F) → (⟨S3300000x40, .f32⟩ : BufTy).Contents (Elt F) → (⟨S100000x40, .f32⟩ : BufTy).Contents (Elt F)) ]
/-- Operations 83–100: bias and log-softmax. -/
abbrev opsSoftmax : List (HloOp τ sig (Elt F)) :=
  [ unary main_arg6 main_v64 (broadcastInDim S1x40 ![1] bcast_S40_S1x40_1 : (⟨S40, .f32⟩ : BufTy).Contents (Elt F) → (⟨S1x40, .f32⟩ : BufTy).Contents (Elt F)),
    unary main_v64 main_v65 (broadcastInDim S100000x40 ![0, 1] bcast_S1x40_S100000x40_0_1 : (⟨S1x40, .f32⟩ : BufTy).Contents (Elt F) → (⟨S100000x40, .f32⟩ : BufTy).Contents (Elt F)),
    binary main_v63 main_v65 main_v66 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call2_cst) (constant S_ .f32 0xFF800000#32),
    TRef.binary (TRef.of (T := ⟨S100000x40, .f32⟩) main_v66) (TRef.of (T := ⟨S_, .f32⟩) main_call2_cst) (TRef.of (T := ⟨S100000, .f32⟩) main_call2_v0) (fun x v => Host.reduce FloatOps.maximumf x v reducesTo_S100000x40_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x40, .f32⟩) main_call2_v4) (broadcastInDim S100000x40 ![0, 1] bcast_S100000x1_S100000x40_0_1),
    TRef.binary (TRef.of (T := ⟨S100000x40, .f32⟩) main_v66) (TRef.of (T := ⟨S100000x40, .f32⟩) main_call2_v4) (TRef.of (T := ⟨S100000x40, .f32⟩) main_call2_v5) subf,
    TRef.unary (TRef.of (T := ⟨S100000x40, .f32⟩) main_call2_v5) (TRef.of (T := ⟨S100000x40, .f32⟩) main_call2_v6) Host.exp,
    TRef.nullary (TRef.of (T := ⟨S_, .f32⟩) main_call2_cst_1) (constant S_ .f32 0x00000000#32),
    TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x40, .f32⟩) main_call2_v10) (broadcastInDim S100000x40 ![0, 1] bcast_S100000x1_S100000x40_0_1),
    TRef.binary (TRef.of (T := ⟨S100000x40, .f32⟩) main_call2_v5) (TRef.of (T := ⟨S100000x40, .f32⟩) main_call2_v10) (TRef.of (T := ⟨S100000x40, .f32⟩) main_v67) subf ]

set_option maxRecDepth 8192 in
theorem ops_split : (ops : List (HloOp τ sig (Elt F))) = opsNorm ++ (opsLayer1 ++ (opsLayer2 ++ opsSoftmax)) := rfl

variable (V : Valuation τ sig (Elt F))

set_option maxHeartbeats 1000000 in
theorem norm_row : after opsNorm V (Proc.devRef .tc main_v3) = Cert.Glue.rowIdx (V (Proc.devRef .tc main_arg1)) := by
  dsimp only [opsNorm]; after_results_simp; rfl
set_option maxHeartbeats 1000000 in
theorem norm_col : after opsNorm V (Proc.devRef .tc main_v6) = Cert.Glue.colIdx (V (Proc.devRef .tc main_arg1)) := by
  dsimp only [opsNorm]; after_results_simp; rfl
set_option maxHeartbeats 2000000 in
theorem norm_edge : after opsNorm V (Proc.devRef .tc main_v31) = Cert.Glue.edgeNorm (V (Proc.devRef .tc main_arg1)) (V (Proc.devRef .tc main_arg2)) := by
  dsimp only [opsNorm]; after_results_simp; rfl
set_option maxHeartbeats 1000000 in
theorem norm_keep_arg0 : after opsNorm V (Proc.devRef .tc main_arg0) = V (Proc.devRef .tc main_arg0) := by
  dsimp only [opsNorm]; after_results_simp
set_option maxHeartbeats 1000000 in
theorem norm_keep_arg3 : after opsNorm V (Proc.devRef .tc main_arg3) = V (Proc.devRef .tc main_arg3) := by
  dsimp only [opsNorm]; after_results_simp
set_option maxHeartbeats 1000000 in
theorem norm_keep_arg4 : after opsNorm V (Proc.devRef .tc main_arg4) = V (Proc.devRef .tc main_arg4) := by
  dsimp only [opsNorm]; after_results_simp
set_option maxHeartbeats 1000000 in
theorem norm_keep_arg5 : after opsNorm V (Proc.devRef .tc main_arg5) = V (Proc.devRef .tc main_arg5) := by
  dsimp only [opsNorm]; after_results_simp
set_option maxHeartbeats 1000000 in
theorem norm_keep_arg6 : after opsNorm V (Proc.devRef .tc main_arg6) = V (Proc.devRef .tc main_arg6) := by
  dsimp only [opsNorm]; after_results_simp

set_option maxHeartbeats 1000000 in
theorem layer1_out : after opsLayer1 V (Proc.devRef .tc main_v45)
    = Cert.Glue.aggregate16 (V (Proc.devRef .tc main_v31)) (V (Proc.devRef .tc main_v3)) (V (Proc.devRef .tc main_v6)) (proj1Host (V (Proc.devRef .tc main_arg0)) (V (Proc.devRef .tc main_arg3))) := by
  dsimp only [opsLayer1]; after_results; rfl
theorem layer1_keep_v31 : after opsLayer1 V (Proc.devRef .tc main_v31) = V (Proc.devRef .tc main_v31) := by
  dsimp only [opsLayer1]; after_results
theorem layer1_keep_v3 : after opsLayer1 V (Proc.devRef .tc main_v3) = V (Proc.devRef .tc main_v3) := by
  dsimp only [opsLayer1]; after_results
theorem layer1_keep_v6 : after opsLayer1 V (Proc.devRef .tc main_v6) = V (Proc.devRef .tc main_v6) := by
  dsimp only [opsLayer1]; after_results
theorem layer1_keep_arg4 : after opsLayer1 V (Proc.devRef .tc main_arg4) = V (Proc.devRef .tc main_arg4) := by
  dsimp only [opsLayer1]; after_results
theorem layer1_keep_arg5 : after opsLayer1 V (Proc.devRef .tc main_arg5) = V (Proc.devRef .tc main_arg5) := by
  dsimp only [opsLayer1]; after_results
theorem layer1_keep_arg6 : after opsLayer1 V (Proc.devRef .tc main_arg6) = V (Proc.devRef .tc main_arg6) := by
  dsimp only [opsLayer1]; after_results

set_option maxHeartbeats 1000000 in
theorem layer2_out : after opsLayer2 V (Proc.devRef .tc main_v63)
    = Cert.Glue.aggregate40 (V (Proc.devRef .tc main_v31)) (V (Proc.devRef .tc main_v3)) (V (Proc.devRef .tc main_v6))
        (proj2Host (V (Proc.devRef .tc main_v45)) (V (Proc.devRef .tc main_arg4)) (V (Proc.devRef .tc main_arg5))) := by
  dsimp only [opsLayer2]; after_results; rfl
theorem layer2_keep_arg6 : after opsLayer2 V (Proc.devRef .tc main_arg6) = V (Proc.devRef .tc main_arg6) := by
  dsimp only [opsLayer2]; after_results

/-- The last stretch again, the log-softmax function's operations written over their buffers directly: the same
    eighteen operations, each writing the same value into the same buffer. -/
abbrev opsSoftmaxPlain : List (HloOp τ sig (Elt F)) :=
  [ unary main_arg6 main_v64 (broadcastInDim S1x40 ![1] bcast_S40_S1x40_1 : (⟨S40, .f32⟩ : BufTy).Contents (Elt F) → (⟨S1x40, .f32⟩ : BufTy).Contents (Elt F)),
    unary main_v64 main_v65 (broadcastInDim S100000x40 ![0, 1] bcast_S1x40_S100000x40_0_1 : (⟨S1x40, .f32⟩ : BufTy).Contents (Elt F) → (⟨S100000x40, .f32⟩ : BufTy).Contents (Elt F)),
    binary main_v63 main_v65 main_v66 (addf : (⟨S100000x40, .f32⟩ : BufTy).Contents (Elt F) → (⟨S100000x40, .f32⟩ : BufTy).Contents (Elt F) → (⟨S100000x40, .f32⟩ : BufTy).Contents (Elt F)),
    nullary main_call2_cst ((constant S_ .f32 0xFF800000#32) : (⟨S_, .f32⟩ : BufTy).Contents (Elt F)),
    binary main_v66 main_call2_cst main_call2_v0 ((fun x v => Host.reduce FloatOps.maximumf x v reducesTo_S100000x40_S100000_d1 h_S_) : (⟨S100000x40, .f32⟩ : BufTy).Contents (Elt F) → (⟨S_, .f32⟩ : BufTy).Contents (Elt F) → (⟨S100000, .f32⟩ : BufTy).Contents (Elt F)),
    nullary main_call2_cst_0 ((constant S_ .f32 0xFF800000#32) : (⟨S_, .f32⟩ : BufTy).Contents (Elt F)),
    unary main_call2_cst_0 main_call2_v1 ((broadcastInDim S100000 ![] bcast_S_S100000) : (⟨S_, .f32⟩ : BufTy).Contents (Elt F) → (⟨S100000, .f32⟩ : BufTy).Contents (Elt F)),
    binary main_call2_v1 main_call2_v0 main_call2_v2 (maximumf : (⟨S100000, .f32⟩ : BufTy).Contents (Elt F) → (⟨S100000, .f32⟩ : BufTy).Contents (Elt F) → (⟨S100000, .f32⟩ : BufTy).Contents (Elt F)),
    unary main_call2_v2 main_call2_v3 ((broadcastInDim S100000x1 ![0] bcast_S100000_S100000x1_0) : (⟨S100000, .f32⟩ : BufTy).Contents (Elt F) → (⟨S100000x1, .f32⟩ : BufTy).Contents (Elt F)),
    unary main_call2_v3 main_call2_v4 ((broadcastInDim S100000x40 ![0, 1] bcast_S100000x1_S100000x40_0_1) : (⟨S100000x1, .f32⟩ : BufTy).Contents (Elt F) → (⟨S100000x40, .f32⟩ : BufTy).Contents (Elt F)),
    binary main_v66 main_call2_v4 main_call2_v5 (subf : (⟨S100000x40, .f32⟩ : BufTy).Contents (Elt F) → (⟨S100000x40, .f32⟩ : BufTy).Contents (Elt F) → (⟨S100000x40, .f32⟩ : BufTy).Contents (Elt F)),
    unary main_call2_v5 main_call2_v6 (Host.exp : (⟨S100000x40, .f32⟩ : BufTy).Contents (Elt F) → (⟨S100000x40, .f32⟩ : BufTy).Contents (Elt F)),
    nullary main_call2_cst_1 ((constant S_ .f32 0x00000000#32) : (⟨S_, .f32⟩ : BufTy).Contents (Elt F)),
    binary main_call2_v6 main_call2_cst_1 main_call2_v7 ((fun x v => Host.reduceAdd x v reducesTo_S100000x40_S100000_d1 h_S_) : (⟨S100000x40, .f32⟩ : BufTy).Contents (Elt F) → (⟨S_, .f32⟩ : BufTy).Contents (Elt F) → (⟨S100000, .f32⟩ : BufTy).Contents (Elt F)),
    unary main_call2_v7 main_call2_v8 ((broadcastInDim S100000x1 ![0] bcast_S100000_S100000x1_0) : (⟨S100000, .f32⟩ : BufTy).Contents (Elt F) → (⟨S100000x1, .f32⟩ : BufTy).Contents (Elt F)),
    unary main_call2_v8 main_call2_v9 (Host.log : (⟨S100000x1, .f32⟩ : BufTy).Contents (Elt F) → (⟨S100000x1, .f32⟩ : BufTy).Contents (Elt F)),
    unary main_call2_v9 main_call2_v10 ((broadcastInDim S100000x40 ![0, 1] bcast_S100000x1_S100000x40_0_1) : (⟨S100000x1, .f32⟩ : BufTy).Contents (Elt F) → (⟨S100000x40, .f32⟩ : BufTy).Contents (Elt F)),
    binary main_call2_v5 main_call2_v10 main_v67 (subf : (⟨S100000x40, .f32⟩ : BufTy).Contents (Elt F) → (⟨S100000x40, .f32⟩ : BufTy).Contents (Elt F) → (⟨S100000x40, .f32⟩ : BufTy).Contents (Elt F)) ]

/-! Each of the called function's operations writes the same value into the same buffer as the plain operation. -/
theorem call_op1 : (TRef.nullary (TRef.of (T := ⟨S_, .f32⟩) main_call2_cst) (constant S_ .f32 0xFF800000#32) : HloOp τ sig (Elt F))
    = nullary main_call2_cst ((constant S_ .f32 0xFF800000#32) : (⟨S_, .f32⟩ : BufTy).Contents (Elt F)) := rfl
/-- For any function of the two operands: the called function's binary operation into the row-maximum buffer is the
    plain one. -/
theorem call_op2_of (f : (⟨S100000x40, .f32⟩ : BufTy).Contents (Elt F) → (⟨S_, .f32⟩ : BufTy).Contents (Elt F) → (⟨S100000, .f32⟩ : BufTy).Contents (Elt F)) :
    (TRef.binary (TRef.of (T := ⟨S100000x40, .f32⟩) main_v66) (TRef.of (T := ⟨S_, .f32⟩) main_call2_cst) (TRef.of (T := ⟨S100000, .f32⟩) main_call2_v0) f : HloOp τ sig (Elt F))
      = binary main_v66 main_call2_cst main_call2_v0 f := rfl
theorem call_op2 : (TRef.binary (TRef.of (T := ⟨S100000x40, .f32⟩) main_v66) (TRef.of (T := ⟨S_, .f32⟩) main_call2_cst) (TRef.of (T := ⟨S100000, .f32⟩) main_call2_v0) (fun x v => Host.reduce FloatOps.maximumf x v reducesTo_S100000x40_S100000_d1 h_S_) : HloOp τ sig (Elt F))
    = binary main_v66 main_call2_cst main_call2_v0 ((fun x v => Host.reduce FloatOps.maximumf x v reducesTo_S100000x40_S100000_d1 h_S_) : (⟨S100000x40, .f32⟩ : BufTy).Contents (Elt F) → (⟨S_, .f32⟩ : BufTy).Contents (Elt F) → (⟨S100000, .f32⟩ : BufTy).Contents (Elt F)) := call_op2_of _
theorem call_op3 : (TRef.nullary (TRef.of (T := ⟨S_, .f32⟩) main_call2_cst_0) (constant S_ .f32 0xFF800000#32) : HloOp τ sig (Elt F))
    = nullary main_call2_cst_0 ((constant S_ .f32 0xFF800000#32) : (⟨S_, .f32⟩ : BufTy).Contents (Elt F)) := rfl
theorem call_op4 : (TRef.unary (TRef.of (T := ⟨S_, .f32⟩) main_call2_cst_0) (TRef.of (T := ⟨S100000, .f32⟩) main_call2_v1) (broadcastInDim S100000 ![] bcast_S_S100000) : HloOp τ sig (Elt F))
    = unary main_call2_cst_0 main_call2_v1 ((broadcastInDim S100000 ![] bcast_S_S100000) : (⟨S_, .f32⟩ : BufTy).Contents (Elt F) → (⟨S100000, .f32⟩ : BufTy).Contents (Elt F)) := rfl
theorem call_op5 : (TRef.binary (TRef.of (T := ⟨S100000, .f32⟩) main_call2_v1) (TRef.of (T := ⟨S100000, .f32⟩) main_call2_v0) (TRef.of (T := ⟨S100000, .f32⟩) main_call2_v2) maximumf : HloOp τ sig (Elt F))
    = binary main_call2_v1 main_call2_v0 main_call2_v2 (maximumf : (⟨S100000, .f32⟩ : BufTy).Contents (Elt F) → (⟨S100000, .f32⟩ : BufTy).Contents (Elt F) → (⟨S100000, .f32⟩ : BufTy).Contents (Elt F)) := rfl
theorem call_op6 : (TRef.unary (TRef.of (T := ⟨S100000, .f32⟩) main_call2_v2) (TRef.of (T := ⟨S100000x1, .f32⟩) main_call2_v3) (broadcastInDim S100000x1 ![0] bcast_S100000_S100000x1_0) : HloOp τ sig (Elt F))
    = unary main_call2_v2 main_call2_v3 ((broadcastInDim S100000x1 ![0] bcast_S100000_S100000x1_0) : (⟨S100000, .f32⟩ : BufTy).Contents (Elt F) → (⟨S100000x1, .f32⟩ : BufTy).Contents (Elt F)) := rfl
theorem call_op7 : (TRef.unary (TRef.of (T := ⟨S100000x1, .f32⟩) main_call2_v3) (TRef.of (T := ⟨S100000x40, .f32⟩) main_call2_v4) (broadcastInDim S100000x40 ![0, 1] bcast_S100000x1_S100000x40_0_1) : HloOp τ sig (Elt F))
    = unary main_call2_v3 main_call2_v4 ((broadcastInDim S100000x40 ![0, 1] bcast_S100000x1_S100000x40_0_1) : (⟨S100000x1, .f32⟩ : BufTy).Contents (Elt F) → (⟨S100000x40, .f32⟩ : BufTy).Contents (Elt F)) := rfl
theorem call_op8 : (TRef.binary (TRef.of (T := ⟨S100000x40, .f32⟩) main_v66) (TRef.of (T := ⟨S100000x40, .f32⟩) main_call2_v4) (TRef.of (T := ⟨S100000x40, .f32⟩) main_call2_v5) subf : HloOp τ sig (Elt F))
    = binary main_v66 main_call2_v4 main_call2_v5 (subf : (⟨S100000x40, .f32⟩ : BufTy).Contents (Elt F) → (⟨S100000x40, .f32⟩ : BufTy).Contents (Elt F) → (⟨S100000x40, .f32⟩ : BufTy).Contents (Elt F)) := rfl
theorem call_op9 : (TRef.unary (TRef.of (T := ⟨S100000x40, .f32⟩) main_call2_v5) (TRef.of (T := ⟨S100000x40, .f32⟩) main_call2_v6) Host.exp : HloOp τ sig (Elt F))
    = unary main_call2_v5 main_call2_v6 (Host.exp : (⟨S100000x40, .f32⟩ : BufTy).Contents (Elt F) → (⟨S100000x40, .f32⟩ : BufTy).Contents (Elt F)) := rfl
theorem call_op10 : (TRef.nullary (TRef.of (T := ⟨S_, .f32⟩) main_call2_cst_1) (constant S_ .f32 0x00000000#32) : HloOp τ sig (Elt F))
    = nullary main_call2_cst_1 ((constant S_ .f32 0x00000000#32) : (⟨S_, .f32⟩ : BufTy).Contents (Elt F)) := rfl
theorem call_op11 : (TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_) : HloOp τ sig (Elt F))
    = binary main_call2_v6 main_call2_cst_1 main_call2_v7 ((fun x v => Host.reduceAdd x v reducesTo_S100000x40_S100000_d1 h_S_) : (⟨S100000x40, .f32⟩ : BufTy).Contents (Elt F) → (⟨S_, .f32⟩ : BufTy).Contents (Elt F) → (⟨S100000, .f32⟩ : BufTy).Contents (Elt F)) := rfl
theorem call_op12 : (TRef.unary (TRef.of (T := ⟨S100000, .f32⟩) main_call2_v7) (TRef.of (T := ⟨S100000x1, .f32⟩) main_call2_v8) (broadcastInDim S100000x1 ![0] bcast_S100000_S100000x1_0) : HloOp τ sig (Elt F))
    = unary main_call2_v7 main_call2_v8 ((broadcastInDim S100000x1 ![0] bcast_S100000_S100000x1_0) : (⟨S100000, .f32⟩ : BufTy).Contents (Elt F) → (⟨S100000x1, .f32⟩ : BufTy).Contents (Elt F)) := rfl
theorem call_op13 : (TRef.unary (TRef.of (T := ⟨S100000x1, .f32⟩) main_call2_v8) (TRef.of (T := ⟨S100000x1, .f32⟩) main_call2_v9) Host.log : HloOp τ sig (Elt F))
    = unary main_call2_v8 main_call2_v9 (Host.log : (⟨S100000x1, .f32⟩ : BufTy).Contents (Elt F) → (⟨S100000x1, .f32⟩ : BufTy).Contents (Elt F)) := rfl
theorem call_op14 : (TRef.unary (TRef.of (T := ⟨S100000x1, .f32⟩) main_call2_v9) (TRef.of (T := ⟨S100000x40, .f32⟩) main_call2_v10) (broadcastInDim S100000x40 ![0, 1] bcast_S100000x1_S100000x40_0_1) : HloOp τ sig (Elt F))
    = unary main_call2_v9 main_call2_v10 ((broadcastInDim S100000x40 ![0, 1] bcast_S100000x1_S100000x40_0_1) : (⟨S100000x1, .f32⟩ : BufTy).Contents (Elt F) → (⟨S100000x40, .f32⟩ : BufTy).Contents (Elt F)) := rfl
theorem call_op15 : (TRef.binary (TRef.of (T := ⟨S100000x40, .f32⟩) main_call2_v5) (TRef.of (T := ⟨S100000x40, .f32⟩) main_call2_v10) (TRef.of (T := ⟨S100000x40, .f32⟩) main_v67) subf : HloOp τ sig (Elt F))
    = binary main_call2_v5 main_call2_v10 main_v67 (subf : (⟨S100000x40, .f32⟩ : BufTy).Contents (Elt F) → (⟨S100000x40, .f32⟩ : BufTy).Contents (Elt F) → (⟨S100000x40, .f32⟩ : BufTy).Contents (Elt F)) := rfl

set_option maxHeartbeats 2000000 in
theorem opsSoftmax_eq : (opsSoftmax : List (HloOp τ sig (Elt F))) = opsSoftmaxPlain := by
  dsimp only [opsSoftmax, opsSoftmaxPlain]
  rw [call_op1, call_op2, call_op3, call_op4, call_op5, call_op6, call_op7, call_op8, call_op9, call_op10, call_op11, call_op12, call_op13, call_op14, call_op15]

set_option maxHeartbeats 2000000 in
theorem softmax_out : after opsSoftmax V (Proc.devRef .tc main_v67)
    = logSoftmaxHost (biasedHost (V (Proc.devRef .tc main_v63)) (V (Proc.devRef .tc main_arg6))) := by
  rw [opsSoftmax_eq]
  dsimp only [opsSoftmaxPlain]; after_results
  unfold logSoftmaxHost shiftedHost rowMaxHost biasedHost
  rfl

/-! ## The whole line -/

/-- The reference's result from any launch contents: the log-softmax of the biased second aggregate of the second
    product of the rectified, biased first aggregate of the first product. -/
theorem result_eq : after ops V (Proc.devRef .tc main_v67)
    = logSoftmaxHost (biasedHost
        (Cert.Glue.aggregate40 (Cert.Glue.edgeNorm (V (Proc.devRef .tc main_arg1)) (V (Proc.devRef .tc main_arg2))) (Cert.Glue.rowIdx (V (Proc.devRef .tc main_arg1))) (Cert.Glue.colIdx (V (Proc.devRef .tc main_arg1)))
          (proj2Host
            (Cert.Glue.aggregate16 (Cert.Glue.edgeNorm (V (Proc.devRef .tc main_arg1)) (V (Proc.devRef .tc main_arg2))) (Cert.Glue.rowIdx (V (Proc.devRef .tc main_arg1))) (Cert.Glue.colIdx (V (Proc.devRef .tc main_arg1)))
              (proj1Host (V (Proc.devRef .tc main_arg0)) (V (Proc.devRef .tc main_arg3))))
            (V (Proc.devRef .tc main_arg4)) (V (Proc.devRef .tc main_arg5))))
        (V (Proc.devRef .tc main_arg6))) := by
  rw [ops_split, after_append, after_append, after_append, softmax_out, layer2_out, layer2_keep_arg6,
    layer1_out, layer1_keep_v31, layer1_keep_v3, layer1_keep_v6, layer1_keep_arg4, layer1_keep_arg5, layer1_keep_arg6,
    norm_edge, norm_row, norm_col, norm_keep_arg0, norm_keep_arg3, norm_keep_arg4, norm_keep_arg5, norm_keep_arg6]

/-! ## The arguments through the whole line, and the run with its result named -/

set_option maxRecDepth 8192 in
set_option maxHeartbeats 4000000 in
theorem keep_arg0 : after ops V (Proc.devRef .tc main_arg0) = V (Proc.devRef .tc main_arg0) := by
  after_results_simp

set_option maxRecDepth 8192 in
set_option maxHeartbeats 4000000 in
theorem keep_arg1 : after ops V (Proc.devRef .tc main_arg1) = V (Proc.devRef .tc main_arg1) := by
  after_results_simp

set_option maxRecDepth 8192 in
set_option maxHeartbeats 4000000 in
theorem keep_arg2 : after ops V (Proc.devRef .tc main_arg2) = V (Proc.devRef .tc main_arg2) := by
  after_results_simp

set_option maxRecDepth 8192 in
set_option maxHeartbeats 4000000 in
theorem keep_arg3 : after ops V (Proc.devRef .tc main_arg3) = V (Proc.devRef .tc main_arg3) := by
  after_results_simp

set_option maxRecDepth 8192 in
set_option maxHeartbeats 4000000 in
theorem keep_arg4 : after ops V (Proc.devRef .tc main_arg4) = V (Proc.devRef .tc main_arg4) := by
  after_results_simp

set_option maxRecDepth 8192 in
set_option maxHeartbeats 4000000 in
theorem keep_arg5 : after ops V (Proc.devRef .tc main_arg5) = V (Proc.devRef .tc main_arg5) := by
  after_results_simp

set_option maxRecDepth 8192 in
set_option maxHeartbeats 4000000 in
theorem keep_arg6 : after ops V (Proc.devRef .tc main_arg6) = V (Proc.devRef .tc main_arg6) := by
  after_results_simp

end Cert.ReferenceIdeal.Chain

end
-- ==== Proof.LibHostRowMax.lean ====
/-
  Three host operations on matrices, read at an index given by coordinates — the keepdims pieces of a row statistic
  computed on the host.

  * a host maximum over the columns of an `[a, n]` array of extended reals, read at row `p`, is the fold of `max`
    from the initial value over the entries `(p, k)`, `k : Fin n`;
  * an `[a, 1]` column repeated along the rows by `broadcast_in_dim` with `dims = [0, 1]` holds, at `(p, c)`, the
    column's entry `(p, 0)`, whatever the column `c`;
  * a `[b]` vector placed as the one row `[1, b]` by `broadcast_in_dim` with `dims = [1]` holds, at `(u, c)`, the
    vector's entry `c`.
-/
import Idealize.ShloMosaic.PureOps.Ideal.Laws
import Idealize.ShloMosaic.Lib.ValueIdx
import Idealize.ShloMosaic.Lib.Pipeline.Value

noncomputable section

namespace Cert.HostRowMax

open Idealize.ShloMosaic Idealize.ShloMosaic.ValueIdx

/-- Row `p` with the column coordinate `k` put back is the index `(p, k)`. -/
theorem lift_row {a n : ℕ} (h : (⟨2, ![a, n]⟩ : Shape).Reduces [1] (⟨1, ![a]⟩ : Shape)) (p : Fin a)
    (k : Fin ((⟨2, ![a, n]⟩ : Shape).size 1)) : h.lift (ix1 p) k = ix2 p (⟨k.val, k.isLt⟩ : Fin n) := by
  funext c; apply Fin.ext
  fin_cases c <;> rfl

/-- A host maximum over the columns, read at row `p`: the fold of `max`, from the initial value, over that row's
    entries. -/
theorem hostReduceMax_row {a n : ℕ} {φ : FTy} (x : FVec Ideal ⟨2, ![a, n]⟩ φ) {u : Shape} (init : u.Idx → Ideal φ)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduce FloatOps.maximumf x init h' hu (ix1 p)
      = (Finset.univ : Finset (Fin n)).fold max (init (Shape.Idx.first hu)) (fun k => x (ix2 p k)) := by
  rw [Host.reduce_eq_fold_single FloatOps.maximumf x init h' h hu]
  exact congrArg (fun f => (Finset.univ : Finset (Fin n)).fold max (init (Shape.Idx.first hu)) f)
    (funext fun k => congrArg x (lift_row h p k))

variable {α : Type}

/-- A column repeated along the rows: at `(p, c)` it holds the column's entry `(p, 0)`. -/
theorem broadcastInDim_cols_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply _ h v _ _ fun ax => by
    match ax with
    | ⟨0, _⟩ =>
      show p.val = if a = 1 then 0 else p.val
      split
      · have := p.isLt; omega
      · rfl
    | ⟨1, _⟩ =>
      show (0 : ℕ) = if (1 : ℕ) = 1 then 0 else c.val
      simp

/-- A vector placed as one row: at `(u, c)` it holds the vector's entry `c`. -/
theorem broadcastInDim_row_apply {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h v (ix2 u c) = v (ix1 c) :=
  broadcastInDim_apply _ h v _ _ fun ax => by
    match ax with
    | ⟨0, _⟩ =>
      show c.val = if b = 1 then 0 else c.val
      split
      · have := c.isLt; omega
      · rfl

end Cert.HostRowMax

end
-- ==== Proof.LibHostRowReads.lean ====
/-
  Three host operations on matrices, read at an index given by coordinates.

  * a host sum over the columns of an `[a, n]` array of extended reals, read at row `p`, is the initial value plus the
    sum over `k : Fin n` of the entries `(p, k)`;
  * an `[a]` vector placed as the column `[a, 1]` by `broadcast_in_dim` along axis 0 holds, at `(p, u)`, entry `p`;
  * an `[a, n]` array padded with extra rows BELOW (no low padding, no interior padding, columns untouched) holds, at
    a row that is one of the operand's, the operand's entry.
-/
import Idealize.ShloMosaic.PureOps.Ideal.Laws
import Idealize.ShloMosaic.Lib.ValueIdx
import Idealize.ShloMosaic.Lib.Pipeline.Value
import Idealize.ShloMosaic.Lib.KernelVsHost

noncomputable section

namespace Cert.HostRowReads

open Idealize.ShloMosaic Idealize.ShloMosaic.ValueIdx

/-- A host sum over the columns, read at row `p`: the initial value plus that row's entries summed. -/
theorem hostReduceAdd_row {a n : ℕ} {φ : FTy} (x : FVec Ideal ⟨2, ![a, n]⟩ φ) {u : Shape} (init : u.Idx → Ideal φ)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduceAdd x init h' hu (ix1 p) = init (Shape.Idx.first hu) + ∑ k : Fin n, x (ix2 p k) := by
  simp only [Host.reduceAdd, Ideal.hostReduceAdd_def]
  rw [Ideal.hostReduceAdd_single h' h]
  refine congrArg (_ + ·) (Finset.sum_congr rfl fun k _ => ?_)
  exact congrArg x (funext fun c => Fin.ext (by match c with | ⟨0, _⟩ => rfl | ⟨1, _⟩ => rfl))

variable {α : Type}

/-- A vector placed as a column: at `(p, u)` it holds the vector's entry `p`. -/
theorem broadcastInDim_col_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply _ h v _ _ fun ax => by
    match ax with
    | ⟨0, _⟩ =>
      show p.val = if a = 1 then 0 else p.val
      split
      · have := p.isLt; omega
      · rfl

/-- Rows appended below: at a row `c'` that is the operand's row `c`, the padded array holds the operand's entry. -/
theorem pad_rows_below_apply {a a' n e : ℕ} (x : (⟨2, ![a, n]⟩ : Shape).Idx → α) {u : Shape} (v : u.Idx → α)
    (h : (⟨2, ![a, n]⟩ : Shape).Pads (![0, 0] : Fin 2 → Nat) ![e, 0] ![0, 0] ⟨2, ![a', n]⟩) (hu : 0 < u.numel)
    (c : Fin a) (c' : Fin a') (hc : c'.val = c.val) (k : Fin n) :
    pad ⟨2, ![a', n]⟩ ![0, 0] ![e, 0] ![0, 0] x v h hu (ix2 c' k) = x (ix2 c k) :=
  pad_apply_of_inside _ _ _ x v h hu _ _ fun ax => by
    match ax with
    | ⟨0, _⟩ => show c'.val = 0 + c.val * (0 + 1); omega
    | ⟨1, _⟩ => show k.val = 0 + k.val * (0 + 1); omega

end Cert.HostRowReads

end
-- ==== Proof.LibHostRowBroadcast.lean ====
/-
  Two host broadcasts read at an index given by coordinates.

  * a `[1, b]` row repeated along the rows by `broadcast_in_dim` with `dims = [0, 1]` holds, at `(p, c)`, the row's
    entry `(0, c)`, whatever the row `p` (the companion of the column form, `[a, 1]` to `[a, b]`);
  * a scalar (a rank-0 array) broadcast to any shape by `broadcast_in_dim` with `dims = []` holds the scalar at every
    index.
-/
import Idealize.ShloMosaic.Lib.ValueIdx
import Idealize.ShloMosaic.Lib.Pipeline.Value

noncomputable section

namespace Cert.HostRowBroadcast

open Idealize.ShloMosaic Idealize.ShloMosaic.ValueIdx

variable {α : Type}

/-- A row repeated along the rows: at `(p, c)` it holds the row's entry `(0, c)`. -/
theorem broadcastInDim_rows_apply {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) :=
  broadcastInDim_apply _ h v _ _ fun ax => by
    match ax with
    | ⟨0, _⟩ =>
      show (0 : ℕ) = if (1 : ℕ) = 1 then 0 else p.val
      simp
    | ⟨1, _⟩ =>
      show c.val = if b = 1 then 0 else c.val
      split
      · have := c.isLt; omega
      · rfl

/-- A scalar broadcast to a shape `t`: at every index it holds the scalar. -/
theorem broadcastInDim_scalar_apply {t : Shape} (v : (⟨0, ![]⟩ : Shape).Idx → α)
    (h : (⟨0, ![]⟩ : Shape).BroadcastsInDim t (![] : Fin 0 → Fin t.rank)) (i : t.Idx) :
    broadcastInDim t ![] h v i = v ix0 :=
  broadcastInDim_apply _ h v i ix0 fun ax => ax.elim0

end Cert.HostRowBroadcast

end
-- ==== Proof.RefDense.lean ====
/-
  The reference's three dense stages are the row formulas.

  On the extended reals, entry by entry:
  * the host's first product is `matProd`;
  * the host's second product of the rectified, biased aggregate is `hiddenProd`, the bias vector entering as its row;
  * the host's log-softmax of the biased aggregate is `logSoftmaxRows`: the host clamps the row maximum (a reduction
    from `-∞`) once more from below by `-∞`, which changes nothing, and sums the exponentials from `0`, which adds nothing;
    the two row statistics, kept as columns and repeated along the lanes, are read at the row.
-/
import proofs.«145352_j7876970020890_1_alg».proof.Proof.RefChain
import proofs.«145352_j7876970020890_1_alg».proof.Proof.Spec
import proofs.«145352_j7876970020890_1_alg».proof.Proof.LibRowColDot
import proofs.«145352_j7876970020890_1_alg».proof.Proof.LibHostRowMax
import proofs.«145352_j7876970020890_1_alg».proof.Proof.LibHostRowReads
import proofs.«145352_j7876970020890_1_alg».proof.Proof.LibHostRowBroadcast
import Idealize.ShloMosaic.Lib.ValueIdx
import Idealize.ShloMosaic.PureOps.Ideal.Laws

noncomputable section

namespace Cert.ReferenceIdeal.Dense

open Idealize.ShloMosaic Idealize.ShloMosaic.TcCoe Idealize.ShloMosaic.ValueIdx Idealize.SL.Sem Idealize.ShloMosaic.StableHlo
open Cert.ReferenceIdeal Cert.ReferenceIdeal.Gen Cert.ReferenceIdeal.Chain
open Cert.GcnRows Cert.Gcn

/-! ## The two products' dimension numbers: the kept coordinate of each operand index is the output's -/

theorem dot1_l0 (j : S100000x16.Idx) (q : dot_S100000x512_S512x16_S100000x16_1_0_0_1_n_n.contr.Idx) :
    (dot_S100000x512_S512x16_S100000x16_1_0_0_1_n_n.lhsIdx j q 0).val = (j 0).val := by
  unfold DotDims.lhsIdx
  rw [dif_neg (show ¬(0 : Fin S100000x512.rank) ∈ dot_S100000x512_S512x16_S100000x16_1_0_0_1_n_n.lhsBatch by decide),
    dif_pos (show (0 : Fin S100000x512.rank) ∈ dot_S100000x512_S512x16_S100000x16_1_0_0_1_n_n.lhsNonContracting by decide)]
  rfl
theorem dot1_r1 (j : S100000x16.Idx) (q : dot_S100000x512_S512x16_S100000x16_1_0_0_1_n_n.contr.Idx) :
    (dot_S100000x512_S512x16_S100000x16_1_0_0_1_n_n.rhsIdx j q 1).val = (j 1).val := by
  unfold DotDims.rhsIdx
  rw [dif_neg (show ¬(1 : Fin S512x16.rank) ∈ dot_S100000x512_S512x16_S100000x16_1_0_0_1_n_n.rhsBatch by decide),
    dif_pos (show (1 : Fin S512x16.rank) ∈ dot_S100000x512_S512x16_S100000x16_1_0_0_1_n_n.rhsNonContracting by decide)]
  rfl
theorem dot2_l0 (j : S100000x40.Idx) (q : dot_S100000x16_S16x40_S100000x40_1_0_0_1_n_n.contr.Idx) :
    (dot_S100000x16_S16x40_S100000x40_1_0_0_1_n_n.lhsIdx j q 0).val = (j 0).val := by
  unfold DotDims.lhsIdx
  rw [dif_neg (show ¬(0 : Fin S100000x16.rank) ∈ dot_S100000x16_S16x40_S100000x40_1_0_0_1_n_n.lhsBatch by decide),
    dif_pos (show (0 : Fin S100000x16.rank) ∈ dot_S100000x16_S16x40_S100000x40_1_0_0_1_n_n.lhsNonContracting by decide)]
  rfl
theorem dot2_r1 (j : S100000x40.Idx) (q : dot_S100000x16_S16x40_S100000x40_1_0_0_1_n_n.contr.Idx) :
    (dot_S100000x16_S16x40_S100000x40_1_0_0_1_n_n.rhsIdx j q 1).val = (j 1).val := by
  unfold DotDims.rhsIdx
  rw [dif_neg (show ¬(1 : Fin S16x40.rank) ∈ dot_S100000x16_S16x40_S100000x40_1_0_0_1_n_n.rhsBatch by decide),
    dif_pos (show (1 : Fin S16x40.rank) ∈ dot_S100000x16_S16x40_S100000x40_1_0_0_1_n_n.rhsNonContracting by decide)]
  rfl

/-! ## The products -/

/-- The host's first product is `x · W1`. -/
theorem proj1_eq (x : FVec Ideal S100000x512 .f32) (w : FVec Ideal S512x16 .f32) : proj1Host x w = matProd x w := by
  funext i
  obtain ⟨r, q, rfl⟩ : ∃ (r : Fin 100000) (q : Fin 16), i = ix2 r q := ⟨i 0, i 1, eq_ix2 i⟩
  unfold proj1Host
  rw [matProd_apply]
  exact Cert.RowColDot.hostDot_rowcol (φ₁ := .f32) (φ₂ := .f32) dot_S100000x512_S512x16_S100000x16_1_0_0_1_n_n rfl rfl rfl rfl
    dot1_l0 dot1_r1 none x w (ix2 r q)

/-- A zero splat read at an index. -/
theorem zeros_apply {t : Shape} (h : S_.BroadcastsInDim t (![] : Fin 0 → Fin t.rank)) (i : t.Idx) :
    broadcastInDim t ![] h (constant (F := Ideal) S_ .f32 0x00000000#32) i = 0 := by
  rw [Cert.HostRowBroadcast.broadcastInDim_scalar_apply, constant_apply, Ideal.ofBits_zero_f32]

/-- A bias vector set as a row and repeated along the rows, at `(r, k)`. -/
theorem bias_apply {a n : ℕ} (b : Vct n) (h₁ : (⟨1, ![n]⟩ : Shape).BroadcastsInDim ⟨2, ![1, n]⟩ (![1] : Fin 1 → Fin 2))
    (h₂ : (⟨2, ![1, n]⟩ : Shape).BroadcastsInDim ⟨2, ![a, n]⟩ (![0, 1] : Fin 2 → Fin 2)) (r : Fin a) (k : Fin n) :
    broadcastInDim ⟨2, ![a, n]⟩ ![0, 1] h₂ (broadcastInDim ⟨2, ![1, n]⟩ ![1] h₁ b) (ix2 r k) = rowVec b (ix2 (0 : Fin 1) k) := by
  rw [Cert.HostRowBroadcast.broadcastInDim_rows_apply, Cert.HostRowMax.broadcastInDim_row_apply, rowVec_apply]

/-- The host's second product of the rectified, biased aggregate is `hiddenProd`. -/
theorem proj2_eq (a : FVec Ideal S100000x16 .f32) (b : FVec Ideal S16 .f32) (w : FVec Ideal S16x40 .f32) :
    proj2Host a b w = hiddenProd a (rowVec b) w := by
  funext i
  obtain ⟨r, q, rfl⟩ : ∃ (r : Fin 100000) (q : Fin 40), i = ix2 r q := ⟨i 0, i 1, eq_ix2 i⟩
  unfold proj2Host
  rw [hiddenProd_apply]
  unfold hiddenDot
  refine (Cert.RowColDot.hostDot_rowcol (φ₁ := .f32) (φ₂ := .f32) dot_S100000x16_S16x40_S100000x40_1_0_0_1_n_n rfl rfl rfl rfl
    dot2_l0 dot2_r1 none _ w (ix2 r q)).trans ?_
  refine Finset.sum_congr rfl fun k _ => ?_
  refine congrArg (· * w (ix2 k q)) ?_
  rw [maximumf_apply, addf_apply, zeros_apply, bias_apply]

/-! ## The log-softmax -/

/-- The biased aggregate at `(r, k)`. -/
theorem biased_apply (a : FVec Ideal S100000x40 .f32) (b : FVec Ideal S40 .f32) (r : Fin 100000) (k : Fin 40) :
    biasedHost a b (ix2 r k) = a (ix2 r k) + rowVec b (ix2 (0 : Fin 1) k) := by
  unfold biasedHost
  rw [addf_apply, bias_apply]

/-- The host's clamped row maximum at row `r` is the row's maximum. -/
theorem rowMax_apply (z : FVec Ideal S100000x40 .f32) (r : Fin 100000) :
    rowMaxHost z (ix1 r) = rowMax (fun k : Fin 40 => z (ix2 r k)) := by
  unfold rowMaxHost
  rw [maximumf_apply, Cert.HostRowBroadcast.broadcastInDim_scalar_apply, constant_apply, ofBits_neg_inf, max_bot_left]
  refine (Cert.HostRowMax.hostReduceMax_row (φ := .f32) z (constant (F := Ideal) S_ .f32 0xFF800000#32)
    reducesTo_S100000x40_S100000_d1 (by decide) h_S_ r).trans ?_
  unfold rowMax
  rw [constant_apply, ofBits_neg_inf]

/-- The shifted rows at `(r, c)`. -/
theorem shifted_apply (z : FVec Ideal S100000x40 .f32) (r : Fin 100000) (c : Fin 40) :
    shiftedHost z (ix2 r c) = z (ix2 r c) - rowMax (fun k : Fin 40 => z (ix2 r k)) := by
  unfold shiftedHost
  rw [subf_apply, Cert.HostRowMax.broadcastInDim_cols_apply, Cert.HostRowReads.broadcastInDim_col_apply, rowMax_apply]

/-- The lane sum of the exponentials of the shifted row `r`, as the host takes it from `0`. -/
theorem logSum_apply (z : FVec Ideal S100000x40 .f32) (r : Fin 100000) :
    Host.reduceAdd (Host.exp (shiftedHost z)) (constant (F := Ideal) S_ .f32 0x00000000#32) reducesTo_S100000x40_S100000_d1 h_S_ (ix1 r)
      = ∑ k : Fin 40, Ideal.exp (z (ix2 r k) - rowMax (fun k : Fin 40 => z (ix2 r k))) := by
  refine (Cert.HostRowReads.hostReduceAdd_row (φ := .f32) (Host.exp (shiftedHost z)) (constant (F := Ideal) S_ .f32 0x00000000#32)
    reducesTo_S100000x40_S100000_d1 (by decide) h_S_ r).trans ?_
  rw [constant_apply, Ideal.ofBits_zero_f32, zero_add]
  refine Finset.sum_congr rfl fun k _ => ?_
  exact congrArg Ideal.exp (shifted_apply z r k)

/-- The host's logarithm of a vector, at an index: the logarithm of the entry. -/
theorem hostLog_apply {s : Shape} (x : FVec Ideal s .f32) (i : s.Idx) : Host.log x i = Ideal.log (x i) := rfl

/-- The logarithm of that sum, kept as a column, at `(r, 0)`. -/
theorem logCol_apply (z : FVec Ideal S100000x40 .f32) (r : Fin 100000) :
    Host.log (broadcastInDim S100000x1 ![0] bcast_S100000_S100000x1_0
        (Host.reduceAdd (Host.exp (shiftedHost z)) (constant (F := Ideal) S_ .f32 0x00000000#32) reducesTo_S100000x40_S100000_d1 h_S_))
      (ix2 r (0 : Fin 1))
      = Ideal.log (∑ k : Fin 40, Ideal.exp (z (ix2 r k) - rowMax (fun k : Fin 40 => z (ix2 r k)))) := by
  rw [hostLog_apply, Cert.HostRowReads.broadcastInDim_col_apply, logSum_apply]

/-- The host's log-softmax of `z`, at `(r, q)`. -/
theorem logSoftmax_apply (z : FVec Ideal S100000x40 .f32) (r : Fin 100000) (q : Fin 40) :
    logSoftmaxHost z (ix2 r q) = logSoftmaxAt (fun k : Fin 40 => z (ix2 r k)) q := by
  unfold logSoftmaxHost logSoftmaxAt
  rw [subf_apply, shifted_apply, Cert.HostRowMax.broadcastInDim_cols_apply]
  exact congrArg (fun t : EReal => (z (ix2 r q) - rowMax (fun k : Fin 40 => z (ix2 r k))) - t) (logCol_apply z r)

/-- The host's log-softmax of the biased aggregate is `logSoftmaxRows`. -/
theorem logits_eq (a : FVec Ideal S100000x40 .f32) (b : FVec Ideal S40 .f32) :
    logSoftmaxHost (biasedHost a b) = logSoftmaxRows a (rowVec b) := by
  funext i
  obtain ⟨r, q, rfl⟩ : ∃ (r : Fin 100000) (q : Fin 40), i = ix2 r q := ⟨i 0, i 1, eq_ix2 i⟩
  rw [logSoftmax_apply, logSoftmaxRows_apply]
  exact congrArg (logSoftmaxAt · q) (funext fun k => biased_apply a b r k)

/-! ## The reference's result -/

/-- From any launch contents the reference's result array ends at the network's output on the arguments. -/
theorem result (V : Valuation τ sig (Elt Ideal)) :
    after ops V (Proc.devRef .tc main_v67)
      = forward (V (Proc.devRef .tc main_arg0)) (V (Proc.devRef .tc main_arg1)) (V (Proc.devRef .tc main_arg2))
          (V (Proc.devRef .tc main_arg3)) (V (Proc.devRef .tc main_arg4)) (V (Proc.devRef .tc main_arg5)) (V (Proc.devRef .tc main_arg6)) := by
  rw [result_eq, logits_eq, proj2_eq, proj1_eq]
  rfl

/-- Every weakly fair execution of the reference terminates, nothing faulting, with the result array at the network's
    output on the launch arguments and the arguments as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v67)
        = forward (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5))
      ∧ r.2.mem ((c.tc : Thread nD τ).loc main_arg6) = (m ((c.tc : Thread nD τ).loc main_arg6)) :=
  (θ_run defs _ _).mono (fun r h c => ⟨(h c main_v67).trans (result (launchContents m c)),
      (h c main_arg0).trans (keep_arg0 (launchContents m c)),
      (h c main_arg1).trans (keep_arg1 (launchContents m c)),
      (h c main_arg2).trans (keep_arg2 (launchContents m c)),
      (h c main_arg3).trans (keep_arg3 (launchContents m c)),
      (h c main_arg4).trans (keep_arg4 (launchContents m c)),
      (h c main_arg5).trans (keep_arg5 (launchContents m c)),
      (h c main_arg6).trans (keep_arg6 (launchContents m c))⟩)
    (raw_run m ρ)

end Cert.ReferenceIdeal.Dense

end
-- ==== Proof.lean ====
/-
  A two-layer graph convolution with a log-softmax head: the kernel program against its reference, on the extended reals.

  Both programs compute `log_softmax (A (relu (A (x · W1) + b1) · W2) + b2)`, `A` the aggregation of node features along
  the symmetrically normalised edges with self-loops. They share the sparse half word for word — the edge norms, the
  gathers, the scatter-adds, all on the host — and differ in the dense half: the kernel program runs three pipelined
  regions (a product; bias, rectifier and product; bias and log-softmax), each over 20 blocks of 5000 rows, where the
  reference runs host products, host broadcasts and a host log-softmax. Each dense stage reads one row of its operand
  at a time, so a region's blocks, which tile the rows, leave the same array as the host stage; a narrowing to bf16 is
  the identity on extended reals, and the reference's extra clamp of a row maximum by `-∞` and its sum of exponentials
  from `0` change nothing. No law of the extended reals beyond `max ⊥ x = x` and `0 + s = s` is used, so the claim needs
  nothing of the precondition.

  The kernel program's result is read off its frame certificate's chain of buffer contents (the run module names the
  result array, the chain module walks the stretches and regions); the reference's off its raw run, one stretch of its
  line at a time. Both end at `Cert.Gcn.forward` of the launch arguments.
-/
import proofs.«145352_j7876970020890_1_alg».proof.Defs
import proofs.«145352_j7876970020890_1_alg».proof.Proof.Gen.Kernel
import proofs.«145352_j7876970020890_1_alg».proof.Proof.Gen.Kernel.Frame
import proofs.«145352_j7876970020890_1_alg».proof.Proof.Gen.KernelIdeal
import proofs.«145352_j7876970020890_1_alg».proof.Proof.Gen.KernelIdeal.Frame
import proofs.«145352_j7876970020890_1_alg».proof.Proof.Gen.ReferenceIdeal
import proofs.«145352_j7876970020890_1_alg».proof.Proof.Gen.Pre_finite_inputs
import proofs.«145352_j7876970020890_1_alg».proof.Proof.KernelRun
import proofs.«145352_j7876970020890_1_alg».proof.Proof.KernelChain
import proofs.«145352_j7876970020890_1_alg».proof.Proof.RefDense
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Dense.run m ρ)

/-- The ideal pass rewrote nothing: the idealization is the program's own text read on the extended reals. -/
theorem preserves : Cert.preserves_Kernel_KernelIdeal := trivial

/-- From memories agreeing on the arguments both programs end with the result array at the network's output on
    those arguments. -/
theorem algebraic : Cert.algebraic_KernelIdeal_ReferenceIdeal := by
  intro m ρ m' ρ' _ hagree
  refine ⟨fun c => Cert.Gcn.forward (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Chain.result m ρ c), (h c).2⟩)
      (Cert.KernelIdeal.Result.run (F := Ideal) m ρ)
  · refine (θ_run Cert.ReferenceIdeal.defs _ _).mono (fun _ h c => ⟨(h c).1.trans ?_, (h c).2⟩)
      (Cert.ReferenceIdeal.Dense.run m' ρ')
    obtain ⟨e0, e1, e2, e3, e4, e5, e6⟩ := hagree c
    rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
